-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x96x224x224 : Shape := ⟨4, ![8, 96, 224, 224]⟩
abbrev S_ : Shape := ⟨0, ![]⟩

class Facts : Prop where
  bcast_S_S8x96x224x224 : S_.BroadcastsInDim S8x96x224x224 (![] : Fin 0 → Fin S8x96x224x224.rank)
  reducesTo_S8x96x224x224_S_d0_1_2_3 : S8x96x224x224.ReducesTo [0, 1, 2, 3] S_
  h_S_ : 0 < S_.numel

variable [Facts]

def fn {F : FTy → Type} [FloatOps F] (main_arg0 : FVec F S8x96x224x224 .f32) : IVec S_ 1 :=
  let main_v0 : FVec F S8x96x224x224 .f32 := Host.absf main_arg0
  let main_cst : FVec F S_ .f32 := constant S_ .f32 0x7F800000#32
  let main_v1 : FVec F S8x96x224x224 .f32 := broadcastInDim S8x96x224x224 ![] bcast_S_S8x96x224x224 main_cst
  let main_v2 : IVec S8x96x224x224 1 := cmpf .olt main_v0 main_v1
  let main_c : IVec S_ 1 := constantI S_ 1 1#1
  let main_v3 : IVec S_ 1 := (fun x v => Host.reduce IntOp.andi x v reducesTo_S8x96x224x224_S_d0_1_2_3 h_S_) main_v2 main_c
  main_v3
-- ==== Kernel.lean ====
abbrev S8x96x224x224 : Shape := ⟨4, ![8, 96, 224, 224]⟩
abbrev S8x224x224x96 : Shape := ⟨4, ![8, 224, 224, 96]⟩
abbrev S1x96x56x224 : Shape := ⟨4, ![1, 96, 56, 224]⟩
abbrev S1x224x56x96 : Shape := ⟨4, ![1, 224, 56, 96]⟩
abbrev S96x56x224 : Shape := ⟨3, ![96, 56, 224]⟩
abbrev S56x224 : Shape := ⟨2, ![56, 224]⟩
abbrev S1x56x224 : Shape := ⟨3, ![1, 56, 224]⟩
abbrev S96x1x224 : Shape := ⟨3, ![96, 1, 224]⟩
abbrev S96x224 : Shape := ⟨2, ![96, 224]⟩
abbrev S1x1x224 : Shape := ⟨3, ![1, 1, 224]⟩
abbrev S224 : Shape := ⟨1, ![224]⟩
abbrev S1x224 : Shape := ⟨2, ![1, 224]⟩
abbrev S224x96 : Shape := ⟨2, ![224, 96]⟩
abbrev S1x224x1x96 : Shape := ⟨4, ![1, 224, 1, 96]⟩
abbrev S401408x96 : Shape := ⟨2, ![401408, 96]⟩

abbrev nBuf : Space → Nat
  | .hbm => 3
  | .vmem => 4
  | .smem => 0
  | _ => 0

abbrev bufTy : (tb : Table) → Fin (tcTables nBuf tb) → BufTy
  | .hbm, ⟨0, _⟩ => ⟨S8x96x224x224, .f32⟩
  | .hbm, ⟨1, _⟩ => ⟨S8x224x224x96, .f32⟩
  | .hbm, ⟨2, _⟩ => ⟨S401408x96, .f32⟩
  | .local _ .vmem, ⟨0, _⟩ => ⟨S1x96x56x224, .f32⟩
  | .local _ .vmem, ⟨1, _⟩ => ⟨S1x96x56x224, .f32⟩
  | .local _ .vmem, ⟨2, _⟩ => ⟨S1x224x56x96, .f32⟩
  | .local _ .vmem, ⟨3, _⟩ => ⟨S1x224x56x96, .f32⟩
  | _, _ => ⟨S8x96x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x96x56x224 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x224x56x96 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S1x96x56x224_S1x96x56x224_0_0_0_0 : ∀ a, (![0, 0, 0, 0] : Fin 4 → Nat) a + S1x96x56x224.size a ≤ S1x96x56x224.size a
  h_S1x96x56x224 : 0 < S1x96x56x224.numel
  shapeCasts_S1x96x56x224_S96x56x224 : S1x96x56x224.ShapeCasts S96x56x224
  reduces_S96x56x224_S56x224 : S96x56x224.Reduces [0] S56x224
  shapeCasts_S56x224_S1x56x224 : S56x224.ShapeCasts S1x56x224
  broadcasts_S1x56x224_S96x56x224 : S1x56x224.Broadcasts S96x56x224
  slices_S96x56x224_o0_0_0_S96x1x224 : S96x56x224.Slices ![0, 0, 0] S96x1x224
  shapeCasts_S96x1x224_S96x224 : S96x1x224.ShapeCasts S96x224
  slices_S1x56x224_o0_0_0_S1x1x224 : S1x56x224.Slices ![0, 0, 0] S1x1x224
  shapeCasts_S1x1x224_S224 : S1x1x224.ShapeCasts S224
  shapeCasts_S224_S1x224 : S224.ShapeCasts S1x224
  broadcasts_S1x224_S96x224 : S1x224.Broadcasts S96x224
  transposes_S96x224_p1_0_S224x96 : S96x224.Transposes [1, 0] S224x96
  inb_S1x224x56x96_S1x224x1x96_0_0_0_0 : ∀ a, (![0, 0, 0, 0] : Fin 4 → Nat) a + S1x224x1x96.size a ≤ S1x224x56x96.size a
  h_S1x224x1x96 : 0 < S1x224x1x96.numel
  shapeCasts_S1x224x1x96_S224x96 : S1x224x1x96.ShapeCasts S224x96
  shapeCasts_S224x96_S1x224x1x96 : S224x96.ShapeCasts S1x224x1x96
  slices_S96x56x224_o0_1_0_S96x1x224 : S96x56x224.Slices ![0, 1, 0] S96x1x224
  slices_S1x56x224_o0_1_0_S1x1x224 : S1x56x224.Slices ![0, 1, 0] S1x1x224
  inb_S1x224x56x96_S1x224x1x96_0_0_1_0 : ∀ a, (![0, 0, 1, 0] : Fin 4 → Nat) a + S1x224x1x96.size a ≤ S1x224x56x96.size a
  slices_S96x56x224_o0_2_0_S96x1x224 : S96x56x224.Slices ![0, 2, 0] S96x1x224
  slices_S1x56x224_o0_2_0_S1x1x224 : S1x56x224.Slices ![0, 2, 0] S1x1x224
  inb_S1x224x56x96_S1x224x1x96_0_0_2_0 : ∀ a, (![0, 0, 2, 0] : Fin 4 → Nat) a + S1x224x1x96.size a ≤ S1x224x56x96.size a
  slices_S96x56x224_o0_3_0_S96x1x224 : S96x56x224.Slices ![0, 3, 0] S96x1x224
  slices_S1x56x224_o0_3_0_S1x1x224 : S1x56x224.Slices ![0, 3, 0] S1x1x224
  inb_S1x224x56x96_S1x224x1x96_0_0_3_0 : ∀ a, (![0, 0, 3, 0] : Fin 4 → Nat) a + S1x224x1x96.size a ≤ S1x224x56x96.size a
  slices_S96x56x224_o0_4_0_S96x1x224 : S96x56x224.Slices ![0, 4, 0] S96x1x224
  slices_S1x56x224_o0_4_0_S1x1x224 : S1x56x224.Slices ![0, 4, 0] S1x1x224
  inb_S1x224x56x96_S1x224x1x96_0_0_4_0 : ∀ a, (![0, 0, 4, 0] : Fin 4 → Nat) a + S1x224x1x96.size a ≤ S1x224x56x96.size a
  slices_S96x56x224_o0_5_0_S96x1x224 : S96x56x224.Slices ![0, 5, 0] S96x1x224
  slices_S1x56x224_o0_5_0_S1x1x224 : S1x56x224.Slices ![0, 5, 0] S1x1x224
  inb_S1x224x56x96_S1x224x1x96_0_0_5_0 : ∀ a, (![0, 0, 5, 0] : Fin 4 → Nat) a + S1x224x1x96.size a ≤ S1x224x56x96.size a
  slices_S96x56x224_o0_6_0_S96x1x224 : S96x56x224.Slices ![0, 6, 0] S96x1x224
  slices_S1x56x224_o0_6_0_S1x1x224 : S1x56x224.Slices ![0, 6, 0] S1x1x224
  inb_S1x224x56x96_S1x224x1x96_0_0_6_0 : ∀ a, (![0, 0, 6, 0] : Fin 4 → Nat) a + S1x224x1x96.size a ≤ S1x224x56x96.size a
  slices_S96x56x224_o0_7_0_S96x1x224 : S96x56x224.Slices ![0, 7, 0] S96x1x224
  slices_S1x56x224_o0_7_0_S1x1x224 : S1x56x224.Slices ![0, 7, 0] S1x1x224
  inb_S1x224x56x96_S1x224x1x96_0_0_7_0 : ∀ a, (![0, 0, 7, 0] : Fin 4 → Nat) a + S1x224x1x96.size a ≤ S1x224x56x96.size a
  slices_S96x56x224_o0_8_0_S96x1x224 : S96x56x224.Slices ![0, 8, 0] S96x1x224
  slices_S1x56x224_o0_8_0_S1x1x224 : S1x56x224.Slices ![0, 8, 0] S1x1x224
  inb_S1x224x56x96_S1x224x1x96_0_0_8_0 : ∀ a, (![0, 0, 8, 0] : Fin 4 → Nat) a + S1x224x1x96.size a ≤ S1x224x56x96.size a
  slices_S96x56x224_o0_9_0_S96x1x224 : S96x56x224.Slices ![0, 9, 0] S96x1x224
  slices_S1x56x224_o0_9_0_S1x1x224 : S1x56x224.Slices ![0, 9, 0] S1x1x224
  inb_S1x224x56x96_S1x224x1x96_0_0_9_0 : ∀ a, (![0, 0, 9, 0] : Fin 4 → Nat) a + S1x224x1x96.size a ≤ S1x224x56x96.size a
  slices_S96x56x224_o0_10_0_S96x1x224 : S96x56x224.Slices ![0, 10, 0] S96x1x224
  slices_S1x56x224_o0_10_0_S1x1x224 : S1x56x224.Slices ![0, 10, 0] S1x1x224
  inb_S1x224x56x96_S1x224x1x96_0_0_10_0 : ∀ a, (![0, 0, 10, 0] : Fin 4 → Nat) a + S1x224x1x96.size a ≤ S1x224x56x96.size a
  slices_S96x56x224_o0_11_0_S96x1x224 : S96x56x224.Slices ![0, 11, 0] S96x1x224
  slices_S1x56x224_o0_11_0_S1x1x224 : S1x56x224.Slices ![0, 11, 0] S1x1x224
  inb_S1x224x56x96_S1x224x1x96_0_0_11_0 : ∀ a, (![0, 0, 11, 0] : Fin 4 → Nat) a + S1x224x1x96.size a ≤ S1x224x56x96.size a
  slices_S96x56x224_o0_12_0_S96x1x224 : S96x56x224.Slices ![0, 12, 0] S96x1x224
  slices_S1x56x224_o0_12_0_S1x1x224 : S1x56x224.Slices ![0, 12, 0] S1x1x224
  inb_S1x224x56x96_S1x224x1x96_0_0_12_0 : ∀ a, (![0, 0, 12, 0] : Fin 4 → Nat) a + S1x224x1x96.size a ≤ S1x224x56x96.size a
  slices_S96x56x224_o0_13_0_S96x1x224 : S96x56x224.Slices ![0, 13, 0] S96x1x224
  slices_S1x56x224_o0_13_0_S1x1x224 : S1x56x224.Slices ![0, 13, 0] S1x1x224
  inb_S1x224x56x96_S1x224x1x96_0_0_13_0 : ∀ a, (![0, 0, 13, 0] : Fin 4 → Nat) a + S1x224x1x96.size a ≤ S1x224x56x96.size a
  slices_S96x56x224_o0_14_0_S96x1x224 : S96x56x224.Slices ![0, 14, 0] S96x1x224
  slices_S1x56x224_o0_14_0_S1x1x224 : S1x56x224.Slices ![0, 14, 0] S1x1x224
  inb_S1x224x56x96_S1x224x1x96_0_0_14_0 : ∀ a, (![0, 0, 14, 0] : Fin 4 → Nat) a + S1x224x1x96.size a ≤ S1x224x56x96.size a
  slices_S96x56x224_o0_15_0_S96x1x224 : S96x56x224.Slices ![0, 15, 0] S96x1x224
  slices_S1x56x224_o0_15_0_S1x1x224 : S1x56x224.Slices ![0, 15, 0] S1x1x224
  inb_S1x224x56x96_S1x224x1x96_0_0_15_0 : ∀ a, (![0, 0, 15, 0] : Fin 4 → Nat) a + S1x224x1x96.size a ≤ S1x224x56x96.size a
  slices_S96x56x224_o0_16_0_S96x1x224 : S96x56x224.Slices ![0, 16, 0] S96x1x224
  slices_S1x56x224_o0_16_0_S1x1x224 : S1x56x224.Slices ![0, 16, 0] S1x1x224
  inb_S1x224x56x96_S1x224x1x96_0_0_16_0 : ∀ a, (![0, 0, 16, 0] : Fin 4 → Nat) a + S1x224x1x96.size a ≤ S1x224x56x96.size a
  slices_S96x56x224_o0_17_0_S96x1x224 : S96x56x224.Slices ![0, 17, 0] S96x1x224
  slices_S1x56x224_o0_17_0_S1x1x224 : S1x56x224.Slices ![0, 17, 0] S1x1x224
  inb_S1x224x56x96_S1x224x1x96_0_0_17_0 : ∀ a, (![0, 0, 17, 0] : Fin 4 → Nat) a + S1x224x1x96.size a ≤ S1x224x56x96.size a
  slices_S96x56x224_o0_18_0_S96x1x224 : S96x56x224.Slices ![0, 18, 0] S96x1x224
  slices_S1x56x224_o0_18_0_S1x1x224 : S1x56x224.Slices ![0, 18, 0] S1x1x224
  inb_S1x224x56x96_S1x224x1x96_0_0_18_0 : ∀ a, (![0, 0, 18, 0] : Fin 4 → Nat) a + S1x224x1x96.size a ≤ S1x224x56x96.size a
  slices_S96x56x224_o0_19_0_S96x1x224 : S96x56x224.Slices ![0, 19, 0] S96x1x224
  slices_S1x56x224_o0_19_0_S1x1x224 : S1x56x224.Slices ![0, 19, 0] S1x1x224
  inb_S1x224x56x96_S1x224x1x96_0_0_19_0 : ∀ a, (![0, 0, 19, 0] : Fin 4 → Nat) a + S1x224x1x96.size a ≤ S1x224x56x96.size a
  slices_S96x56x224_o0_20_0_S96x1x224 : S96x56x224.Slices ![0, 20, 0] S96x1x224
  slices_S1x56x224_o0_20_0_S1x1x224 : S1x56x224.Slices ![0, 20, 0] S1x1x224
  inb_S1x224x56x96_S1x224x1x96_0_0_20_0 : ∀ a, (![0, 0, 20, 0] : Fin 4 → Nat) a + S1x224x1x96.size a ≤ S1x224x56x96.size a
  slices_S96x56x224_o0_21_0_S96x1x224 : S96x56x224.Slices ![0, 21, 0] S96x1x224
  slices_S1x56x224_o0_21_0_S1x1x224 : S1x56x224.Slices ![0, 21, 0] S1x1x224
  inb_S1x224x56x96_S1x224x1x96_0_0_21_0 : ∀ a, (![0, 0, 21, 0] : Fin 4 → Nat) a + S1x224x1x96.size a ≤ S1x224x56x96.size a
  slices_S96x56x224_o0_22_0_S96x1x224 : S96x56x224.Slices ![0, 22, 0] S96x1x224
  slices_S1x56x224_o0_22_0_S1x1x224 : S1x56x224.Slices ![0, 22, 0] S1x1x224
  inb_S1x224x56x96_S1x224x1x96_0_0_22_0 : ∀ a, (![0, 0, 22, 0] : Fin 4 → Nat) a + S1x224x1x96.size a ≤ S1x224x56x96.size a
  slices_S96x56x224_o0_23_0_S96x1x224 : S96x56x224.Slices ![0, 23, 0] S96x1x224
  slices_S1x56x224_o0_23_0_S1x1x224 : S1x56x224.Slices ![0, 23, 0] S1x1x224
  inb_S1x224x56x96_S1x224x1x96_0_0_23_0 : ∀ a, (![0, 0, 23, 0] : Fin 4 → Nat) a + S1x224x1x96.size a ≤ S1x224x56x96.size a
  slices_S96x56x224_o0_24_0_S96x1x224 : S96x56x224.Slices ![0, 24, 0] S96x1x224
  slices_S1x56x224_o0_24_0_S1x1x224 : S1x56x224.Slices ![0, 24, 0] S1x1x224
  inb_S1x224x56x96_S1x224x1x96_0_0_24_0 : ∀ a, (![0, 0, 24, 0] : Fin 4 → Nat) a + S1x224x1x96.size a ≤ S1x224x56x96.size a
  slices_S96x56x224_o0_25_0_S96x1x224 : S96x56x224.Slices ![0, 25, 0] S96x1x224
  slices_S1x56x224_o0_25_0_S1x1x224 : S1x56x224.Slices ![0, 25, 0] S1x1x224
  inb_S1x224x56x96_S1x224x1x96_0_0_25_0 : ∀ a, (![0, 0, 25, 0] : Fin 4 → Nat) a + S1x224x1x96.size a ≤ S1x224x56x96.size a
  slices_S96x56x224_o0_26_0_S96x1x224 : S96x56x224.Slices ![0, 26, 0] S96x1x224
  slices_S1x56x224_o0_26_0_S1x1x224 : S1x56x224.Slices ![0, 26, 0] S1x1x224
  inb_S1x224x56x96_S1x224x1x96_0_0_26_0 : ∀ a, (![0, 0, 26, 0] : Fin 4 → Nat) a + S1x224x1x96.size a ≤ S1x224x56x96.size a
  slices_S96x56x224_o0_27_0_S96x1x224 : S96x56x224.Slices ![0, 27, 0] S96x1x224
  slices_S1x56x224_o0_27_0_S1x1x224 : S1x56x224.Slices ![0, 27, 0] S1x1x224
  inb_S1x224x56x96_S1x224x1x96_0_0_27_0 : ∀ a, (![0, 0, 27, 0] : Fin 4 → Nat) a + S1x224x1x96.size a ≤ S1x224x56x96.size a
  slices_S96x56x224_o0_28_0_S96x1x224 : S96x56x224.Slices ![0, 28, 0] S96x1x224
  slices_S1x56x224_o0_28_0_S1x1x224 : S1x56x224.Slices ![0, 28, 0] S1x1x224
  inb_S1x224x56x96_S1x224x1x96_0_0_28_0 : ∀ a, (![0, 0, 28, 0] : Fin 4 → Nat) a + S1x224x1x96.size a ≤ S1x224x56x96.size a
  slices_S96x56x224_o0_29_0_S96x1x224 : S96x56x224.Slices ![0, 29, 0] S96x1x224
  slices_S1x56x224_o0_29_0_S1x1x224 : S1x56x224.Slices ![0, 29, 0] S1x1x224
  inb_S1x224x56x96_S1x224x1x96_0_0_29_0 : ∀ a, (![0, 0, 29, 0] : Fin 4 → Nat) a + S1x224x1x96.size a ≤ S1x224x56x96.size a
  slices_S96x56x224_o0_30_0_S96x1x224 : S96x56x224.Slices ![0, 30, 0] S96x1x224
  slices_S1x56x224_o0_30_0_S1x1x224 : S1x56x224.Slices ![0, 30, 0] S1x1x224
  inb_S1x224x56x96_S1x224x1x96_0_0_30_0 : ∀ a, (![0, 0, 30, 0] : Fin 4 → Nat) a + S1x224x1x96.size a ≤ S1x224x56x96.size a
  slices_S96x56x224_o0_31_0_S96x1x224 : S96x56x224.Slices ![0, 31, 0] S96x1x224
  slices_S1x56x224_o0_31_0_S1x1x224 : S1x56x224.Slices ![0, 31, 0] S1x1x224
  inb_S1x224x56x96_S1x224x1x96_0_0_31_0 : ∀ a, (![0, 0, 31, 0] : Fin 4 → Nat) a + S1x224x1x96.size a ≤ S1x224x56x96.size a
  slices_S96x56x224_o0_32_0_S96x1x224 : S96x56x224.Slices ![0, 32, 0] S96x1x224
  slices_S1x56x224_o0_32_0_S1x1x224 : S1x56x224.Slices ![0, 32, 0] S1x1x224
  inb_S1x224x56x96_S1x224x1x96_0_0_32_0 : ∀ a, (![0, 0, 32, 0] : Fin 4 → Nat) a + S1x224x1x96.size a ≤ S1x224x56x96.size a
  slices_S96x56x224_o0_33_0_S96x1x224 : S96x56x224.Slices ![0, 33, 0] S96x1x224
  slices_S1x56x224_o0_33_0_S1x1x224 : S1x56x224.Slices ![0, 33, 0] S1x1x224
  inb_S1x224x56x96_S1x224x1x96_0_0_33_0 : ∀ a, (![0, 0, 33, 0] : Fin 4 → Nat) a + S1x224x1x96.size a ≤ S1x224x56x96.size a
  slices_S96x56x224_o0_34_0_S96x1x224 : S96x56x224.Slices ![0, 34, 0] S96x1x224
  slices_S1x56x224_o0_34_0_S1x1x224 : S1x56x224.Slices ![0, 34, 0] S1x1x224
  inb_S1x224x56x96_S1x224x1x96_0_0_34_0 : ∀ a, (![0, 0, 34, 0] : Fin 4 → Nat) a + S1x224x1x96.size a ≤ S1x224x56x96.size a
  slices_S96x56x224_o0_35_0_S96x1x224 : S96x56x224.Slices ![0, 35, 0] S96x1x224
  slices_S1x56x224_o0_35_0_S1x1x224 : S1x56x224.Slices ![0, 35, 0] S1x1x224
  inb_S1x224x56x96_S1x224x1x96_0_0_35_0 : ∀ a, (![0, 0, 35, 0] : Fin 4 → Nat) a + S1x224x1x96.size a ≤ S1x224x56x96.size a
  slices_S96x56x224_o0_36_0_S96x1x224 : S96x56x224.Slices ![0, 36, 0] S96x1x224
  slices_S1x56x224_o0_36_0_S1x1x224 : S1x56x224.Slices ![0, 36, 0] S1x1x224
  inb_S1x224x56x96_S1x224x1x96_0_0_36_0 : ∀ a, (![0, 0, 36, 0] : Fin 4 → Nat) a + S1x224x1x96.size a ≤ S1x224x56x96.size a
  slices_S96x56x224_o0_37_0_S96x1x224 : S96x56x224.Slices ![0, 37, 0] S96x1x224
  slices_S1x56x224_o0_37_0_S1x1x224 : S1x56x224.Slices ![0, 37, 0] S1x1x224
  inb_S1x224x56x96_S1x224x1x96_0_0_37_0 : ∀ a, (![0, 0, 37, 0] : Fin 4 → Nat) a + S1x224x1x96.size a ≤ S1x224x56x96.size a
  slices_S96x56x224_o0_38_0_S96x1x224 : S96x56x224.Slices ![0, 38, 0] S96x1x224
  slices_S1x56x224_o0_38_0_S1x1x224 : S1x56x224.Slices ![0, 38, 0] S1x1x224
  inb_S1x224x56x96_S1x224x1x96_0_0_38_0 : ∀ a, (![0, 0, 38, 0] : Fin 4 → Nat) a + S1x224x1x96.size a ≤ S1x224x56x96.size a
  slices_S96x56x224_o0_39_0_S96x1x224 : S96x56x224.Slices ![0, 39, 0] S96x1x224
  slices_S1x56x224_o0_39_0_S1x1x224 : S1x56x224.Slices ![0, 39, 0] S1x1x224
  inb_S1x224x56x96_S1x224x1x96_0_0_39_0 : ∀ a, (![0, 0, 39, 0] : Fin 4 → Nat) a + S1x224x1x96.size a ≤ S1x224x56x96.size a
  slices_S96x56x224_o0_40_0_S96x1x224 : S96x56x224.Slices ![0, 40, 0] S96x1x224
  slices_S1x56x224_o0_40_0_S1x1x224 : S1x56x224.Slices ![0, 40, 0] S1x1x224
  inb_S1x224x56x96_S1x224x1x96_0_0_40_0 : ∀ a, (![0, 0, 40, 0] : Fin 4 → Nat) a + S1x224x1x96.size a ≤ S1x224x56x96.size a
  slices_S96x56x224_o0_41_0_S96x1x224 : S96x56x224.Slices ![0, 41, 0] S96x1x224
  slices_S1x56x224_o0_41_0_S1x1x224 : S1x56x224.Slices ![0, 41, 0] S1x1x224
  inb_S1x224x56x96_S1x224x1x96_0_0_41_0 : ∀ a, (![0, 0, 41, 0] : Fin 4 → Nat) a + S1x224x1x96.size a ≤ S1x224x56x96.size a
  slices_S96x56x224_o0_42_0_S96x1x224 : S96x56x224.Slices ![0, 42, 0] S96x1x224
  slices_S1x56x224_o0_42_0_S1x1x224 : S1x56x224.Slices ![0, 42, 0] S1x1x224
  inb_S1x224x56x96_S1x224x1x96_0_0_42_0 : ∀ a, (![0, 0, 42, 0] : Fin 4 → Nat) a + S1x224x1x96.size a ≤ S1x224x56x96.size a
  slices_S96x56x224_o0_43_0_S96x1x224 : S96x56x224.Slices ![0, 43, 0] S96x1x224
  slices_S1x56x224_o0_43_0_S1x1x224 : S1x56x224.Slices ![0, 43, 0] S1x1x224
  inb_S1x224x56x96_S1x224x1x96_0_0_43_0 : ∀ a, (![0, 0, 43, 0] : Fin 4 → Nat) a + S1x224x1x96.size a ≤ S1x224x56x96.size a
  slices_S96x56x224_o0_44_0_S96x1x224 : S96x56x224.Slices ![0, 44, 0] S96x1x224
  slices_S1x56x224_o0_44_0_S1x1x224 : S1x56x224.Slices ![0, 44, 0] S1x1x224
  inb_S1x224x56x96_S1x224x1x96_0_0_44_0 : ∀ a, (![0, 0, 44, 0] : Fin 4 → Nat) a + S1x224x1x96.size a ≤ S1x224x56x96.size a
  slices_S96x56x224_o0_45_0_S96x1x224 : S96x56x224.Slices ![0, 45, 0] S96x1x224
  slices_S1x56x224_o0_45_0_S1x1x224 : S1x56x224.Slices ![0, 45, 0] S1x1x224
  inb_S1x224x56x96_S1x224x1x96_0_0_45_0 : ∀ a, (![0, 0, 45, 0] : Fin 4 → Nat) a + S1x224x1x96.size a ≤ S1x224x56x96.size a
  slices_S96x56x224_o0_46_0_S96x1x224 : S96x56x224.Slices ![0, 46, 0] S96x1x224
  slices_S1x56x224_o0_46_0_S1x1x224 : S1x56x224.Slices ![0, 46, 0] S1x1x224
  inb_S1x224x56x96_S1x224x1x96_0_0_46_0 : ∀ a, (![0, 0, 46, 0] : Fin 4 → Nat) a + S1x224x1x96.size a ≤ S1x224x56x96.size a
  slices_S96x56x224_o0_47_0_S96x1x224 : S96x56x224.Slices ![0, 47, 0] S96x1x224
  slices_S1x56x224_o0_47_0_S1x1x224 : S1x56x224.Slices ![0, 47, 0] S1x1x224
  inb_S1x224x56x96_S1x224x1x96_0_0_47_0 : ∀ a, (![0, 0, 47, 0] : Fin 4 → Nat) a + S1x224x1x96.size a ≤ S1x224x56x96.size a
  slices_S96x56x224_o0_48_0_S96x1x224 : S96x56x224.Slices ![0, 48, 0] S96x1x224
  slices_S1x56x224_o0_48_0_S1x1x224 : S1x56x224.Slices ![0, 48, 0] S1x1x224
  inb_S1x224x56x96_S1x224x1x96_0_0_48_0 : ∀ a, (![0, 0, 48, 0] : Fin 4 → Nat) a + S1x224x1x96.size a ≤ S1x224x56x96.size a
  slices_S96x56x224_o0_49_0_S96x1x224 : S96x56x224.Slices ![0, 49, 0] S96x1x224
  slices_S1x56x224_o0_49_0_S1x1x224 : S1x56x224.Slices ![0, 49, 0] S1x1x224
  inb_S1x224x56x96_S1x224x1x96_0_0_49_0 : ∀ a, (![0, 0, 49, 0] : Fin 4 → Nat) a + S1x224x1x96.size a ≤ S1x224x56x96.size a
  slices_S96x56x224_o0_50_0_S96x1x224 : S96x56x224.Slices ![0, 50, 0] S96x1x224
  slices_S1x56x224_o0_50_0_S1x1x224 : S1x56x224.Slices ![0, 50, 0] S1x1x224
  inb_S1x224x56x96_S1x224x1x96_0_0_50_0 : ∀ a, (![0, 0, 50, 0] : Fin 4 → Nat) a + S1x224x1x96.size a ≤ S1x224x56x96.size a
  slices_S96x56x224_o0_51_0_S96x1x224 : S96x56x224.Slices ![0, 51, 0] S96x1x224
  slices_S1x56x224_o0_51_0_S1x1x224 : S1x56x224.Slices ![0, 51, 0] S1x1x224
  inb_S1x224x56x96_S1x224x1x96_0_0_51_0 : ∀ a, (![0, 0, 51, 0] : Fin 4 → Nat) a + S1x224x1x96.size a ≤ S1x224x56x96.size a
  slices_S96x56x224_o0_52_0_S96x1x224 : S96x56x224.Slices ![0, 52, 0] S96x1x224
  slices_S1x56x224_o0_52_0_S1x1x224 : S1x56x224.Slices ![0, 52, 0] S1x1x224
  inb_S1x224x56x96_S1x224x1x96_0_0_52_0 : ∀ a, (![0, 0, 52, 0] : Fin 4 → Nat) a + S1x224x1x96.size a ≤ S1x224x56x96.size a
  slices_S96x56x224_o0_53_0_S96x1x224 : S96x56x224.Slices ![0, 53, 0] S96x1x224
  slices_S1x56x224_o0_53_0_S1x1x224 : S1x56x224.Slices ![0, 53, 0] S1x1x224
  inb_S1x224x56x96_S1x224x1x96_0_0_53_0 : ∀ a, (![0, 0, 53, 0] : Fin 4 → Nat) a + S1x224x1x96.size a ≤ S1x224x56x96.size a
  slices_S96x56x224_o0_54_0_S96x1x224 : S96x56x224.Slices ![0, 54, 0] S96x1x224
  slices_S1x56x224_o0_54_0_S1x1x224 : S1x56x224.Slices ![0, 54, 0] S1x1x224
  inb_S1x224x56x96_S1x224x1x96_0_0_54_0 : ∀ a, (![0, 0, 54, 0] : Fin 4 → Nat) a + S1x224x1x96.size a ≤ S1x224x56x96.size a
  slices_S96x56x224_o0_55_0_S96x1x224 : S96x56x224.Slices ![0, 55, 0] S96x1x224
  slices_S1x56x224_o0_55_0_S1x1x224 : S1x56x224.Slices ![0, 55, 0] S1x1x224
  inb_S1x224x56x96_S1x224x1x96_0_0_55_0 : ∀ a, (![0, 0, 55, 0] : Fin 4 → Nat) a + S1x224x1x96.size a ≤ S1x224x56x96.size a
  shapeCasts_S8x224x224x96_S401408x96 : S8x224x224x96.ShapeCasts S401408x96
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x96x56x224.size a ≤ S8x96x224x224.size a
  hwx0_0 : ∀ i : grid0.Coords, EltTy.bits .f32 = 32 ∨ (Rect.block (s := S8x96x224x224) S1x96x56x224.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x224x56x96.size a ≤ S8x224x224x96.size a
  hwx0_1 : ∀ i : grid0.Coords, EltTy.bits .f32 = 32 ∨ (Rect.block (s := S8x224x224x96) S1x224x56x96.size (cc0_transform_1 i) (hinb0_1 i)).WholeWords (EltTy.packing .f32)

variable [Facts₀]

abbrev win0_0 : Pipeline.Window sig grid0 :=
  Pipeline.Window.ofSpec (Memref.whole main_arg0) S1x96x56x224.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x224x56x96.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8x96x224x224 : Shape := ⟨4, ![8, 96, 224, 224]⟩
abbrev S8x224x224x96 : Shape := ⟨4, ![8, 224, 224, 96]⟩
abbrev S401408x96 : Shape := ⟨2, ![401408, 96]⟩
abbrev S_ : Shape := ⟨0, ![]⟩
abbrev S401408 : Shape := ⟨1, ![401408]⟩
abbrev S401408x1 : Shape := ⟨2, ![401408, 1]⟩

abbrev nBuf : Space → Nat
  | .hbm => 18
  | .vmem => 0
  | .smem => 0
  | _ => 0

abbrev bufTy : (tb : Table) → Fin (tcTables nBuf tb) → BufTy
  | .hbm, ⟨0, _⟩ => ⟨S8x96x224x224, .f32⟩
  | .hbm, ⟨1, _⟩ => ⟨S8x224x224x96, .f32⟩
  | .hbm, ⟨2, _⟩ => ⟨S401408x96, .f32⟩
  | .hbm, ⟨3, _⟩ => ⟨S_, .f32⟩
  | .hbm, ⟨4, _⟩ => ⟨S401408, .f32⟩
  | .hbm, ⟨5, _⟩ => ⟨S_, .f32⟩
  | .hbm, ⟨6, _⟩ => ⟨S401408, .f32⟩
  | .hbm, ⟨7, _⟩ => ⟨S401408, .f32⟩
  | .hbm, ⟨8, _⟩ => ⟨S401408x1, .f32⟩
  | .hbm, ⟨9, _⟩ => ⟨S401408x96, .f32⟩
  | .hbm, ⟨10, _⟩ => ⟨S401408x96, .f32⟩
  | .hbm, ⟨11, _⟩ => ⟨S401408x96, .f32⟩
  | .hbm, ⟨12, _⟩ => ⟨S_, .f32⟩
  | .hbm, ⟨13, _⟩ => ⟨S401408, .f32⟩
  | .hbm, ⟨14, _⟩ => ⟨S401408x1, .f32⟩
  | .hbm, ⟨15, _⟩ => ⟨S401408x1, .f32⟩
  | .hbm, ⟨16, _⟩ => ⟨S401408x96, .f32⟩
  | .hbm, ⟨17, _⟩ => ⟨S401408x96, .f32⟩
  | _, _ => ⟨S8x96x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_call0_cst : Ref sig .tc := ⟨.hbm, 3, rfl⟩
abbrev main_call0_v0 : Ref sig .tc := ⟨.hbm, 4, rfl⟩
abbrev main_call0_cst_0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_cst_1 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_v2 : Ref sig .tc := ⟨.hbm, 17, rfl⟩

abbrev nD : Nat := 1
abbrev τ : Topo := Topo.v7x

variable {F : FTy → Type} [FloatOps F]

class Facts₀ : Prop where
  transposes_S8x96x224x224_S8x224x224x96_0_3_2_1 : S8x96x224x224.Transposes [0, 3, 2, 1] S8x224x224x96
  shapeCasts_S8x224x224x96_S401408x96 : S8x224x224x96.ShapeCasts S401408x96
  reducesTo_S401408x96_S401408_d1 : S401408x96.ReducesTo [1] S401408
  h_S_ : 0 < S_.numel
  bcast_S_S401408 : S_.BroadcastsInDim S401408 (![] : Fin 0 → Fin S401408.rank)
  bcast_S401408_S401408x1_0 : S401408.BroadcastsInDim S401408x1 (![0] : Fin 1 → Fin S401408x1.rank)
  bcast_S401408x1_S401408x96_0_1 : S401408x1.BroadcastsInDim S401408x96 (![0, 1] : Fin 2 → Fin S401408x96.rank)

variable [Facts₀]

class Facts : Prop extends Facts₀ where

variable [Facts]
-- ==== Proof.RefRun.lean ====
/-
  The reference program's run, read back.

  The reference transposes the input [8, 96, 224, 224] to [8, 224, 224, 96], flattens it to 401408 rows of 96
  channels, and applies a row-wise log-softmax: the row's maximum (taken once more against -inf), the shifted row,
  the exponentials' sum from zero, its logarithm, and the difference. Its @main is a straight line of seventeen host
  operations; every weakly fair execution runs them in order and leaves the result buffer at the operations'
  composed term of the argument, the argument unchanged.

  The two reductions are kept as PARAMETERS (`R` for the maximum, `RA` for the sum) while the fold over the
  operations is computed: a reduction over a [401408, 96] array is a fold over 38 million positions, and the
  computation of what a buffer holds after the line never needs to look inside it.
-/
import proofs.«162361_g53626961658373_cont_9to1c4b_865_30_alg».proof.Proof.Gen.ReferenceIdeal
import Idealize.ShloMosaic.Lib.StableHlo.Run

noncomputable section

namespace Cert.ReferenceIdeal.RowRun

open Cert.ReferenceIdeal Cert.ReferenceIdeal.Gen Idealize.ShloMosaic Idealize.ShloMosaic.TcCoe Idealize.SL.Sem Idealize.ShloMosaic.StableHlo

variable {F : FTy → Type} [FloatOps F]

/-- A reduction of the rows to one number per row, from an initial scalar. -/
abbrev RowReduce (F : FTy → Type) : Type := (⟨S401408x96, .f32⟩ : BufTy).Contents (Elt F) → (⟨S_, .f32⟩ : BufTy).Contents (Elt F) → (⟨S401408, .f32⟩ : BufTy).Contents (Elt F)

/-- The rows: the input with its channel axis moved last, flattened to [401408, 96]. -/
def rows (x : FVec F S8x96x224x224 .f32) : FVec F S401408x96 .f32 :=
  shapeCast S401408x96 (transpose S8x224x224x96 [0, 3, 2, 1] x transposes_S8x96x224x224_S8x224x224x96_0_3_2_1) shapeCasts_S8x224x224x96_S401408x96

/-- A per-row number spread over the row's 96 channels. -/
def spread (v : FVec F S401408x1 .f32) : FVec F S401408x96 .f32 :=
  broadcastInDim S401408x96 ![0, 1] bcast_S401408x1_S401408x96_0_1 v

/-- A vector of per-row numbers as a column. -/
def column (v : FVec F S401408 .f32) : FVec F S401408x1 .f32 :=
  broadcastInDim S401408x1 ![0] bcast_S401408_S401408x1_0 v

/-- The rows minus their maxima (each maximum taken once more against -inf). -/
def shiftedWith (R : RowReduce F) (x : FVec F S8x96x224x224 .f32) : FVec F S401408x96 .f32 :=
  subf (rows x) (spread (column (maximumf (broadcastInDim S401408 ![] bcast_S_S401408 (constant S_ .f32 0xFF800000#32))
    (R (rows x) (constant S_ .f32 0xFF800000#32)))))

/-- The reference's result over the two reductions. -/
def resultWith (R RA : RowReduce F) (x : FVec F S8x96x224x224 .f32) : FVec F S401408x96 .f32 :=
  subf (shiftedWith R x) (spread (Host.log (column (RA (Host.exp (shiftedWith R x)) (constant S_ .f32 0x00000000#32)))))

/-- The row maximum as the host computes it. -/
def hostMax : RowReduce F := fun x v => Host.reduce FloatOps.maximumf x v reducesTo_S401408x96_S401408_d1 h_S_

/-- The row sum as the host computes it. -/
def hostSum : RowReduce F := fun x v => Host.reduceAdd x v reducesTo_S401408x96_S401408_d1 h_S_

/-- The reference's result as one function of its argument. -/
def result (x : FVec F S8x96x224x224 .f32) : FVec F S401408x96 .f32 := resultWith hostMax hostSum x

/-- @main's seventeen operations, in order, over the two reductions (the called function's operations stand in the
    call's place). -/
abbrev opsWith (R RA : RowReduce F) : List (HloOp τ sig (Elt F)) :=
  [ unary main_arg0 main_v0 ((transpose S8x224x224x96 [0, 3, 2, 1] · transposes_S8x96x224x224_S8x224x224x96_0_3_2_1) : (⟨S8x96x224x224, .f32⟩ : BufTy).Contents (Elt F) → (⟨S8x224x224x96, .f32⟩ : BufTy).Contents (Elt F)),
    reshape main_v0 main_v1 rfl shapeCasts_S8x224x224x96_S401408x96,
    TRef.nullary (TRef.of (T := ⟨S_, .f32⟩) main_call0_cst) (constant S_ .f32 0xFF800000#32),
    TRef.binary (TRef.of (T := ⟨S401408x96, .f32⟩) main_v1) (TRef.of (T := ⟨S_, .f32⟩) main_call0_cst) (TRef.of (T := ⟨S401408, .f32⟩) main_call0_v0) R,
    TRef.nullary (TRef.of (T := ⟨S_, .f32⟩) main_call0_cst_0) (constant S_ .f32 0xFF800000#32),
    TRef.unary (TRef.of (T := ⟨S_, .f32⟩) main_call0_cst_0) (TRef.of (T := ⟨S401408, .f32⟩) main_call0_v1) (broadcastInDim S401408 ![] bcast_S_S401408),
    TRef.binary (TRef.of (T := ⟨S401408, .f32⟩) main_call0_v1) (TRef.of (T := ⟨S401408, .f32⟩) main_call0_v0) (TRef.of (T := ⟨S401408, .f32⟩) main_call0_v2) maximumf,
    TRef.unary (TRef.of (T := ⟨S401408, .f32⟩) main_call0_v2) (TRef.of (T := ⟨S401408x1, .f32⟩) main_call0_v3) (broadcastInDim S401408x1 ![0] bcast_S401408_S401408x1_0),
    TRef.unary (TRef.of (T := ⟨S401408x1, .f32⟩) main_call0_v3) (TRef.of (T := ⟨S401408x96, .f32⟩) main_call0_v4) (broadcastInDim S401408x96 ![0, 1] bcast_S401408x1_S401408x96_0_1),
    TRef.binary (TRef.of (T := ⟨S401408x96, .f32⟩) main_v1) (TRef.of (T := ⟨S401408x96, .f32⟩) main_call0_v4) (TRef.of (T := ⟨S401408x96, .f32⟩) main_call0_v5) subf,
    TRef.unary (TRef.of (T := ⟨S401408x96, .f32⟩) main_call0_v5) (TRef.of (T := ⟨S401408x96, .f32⟩) main_call0_v6) Host.exp,
    TRef.nullary (TRef.of (T := ⟨S_, .f32⟩) main_call0_cst_1) (constant S_ .f32 0x00000000#32),
    TRef.binary (TRef.of (T := ⟨S401408x96, .f32⟩) main_call0_v6) (TRef.of (T := ⟨S_, .f32⟩) main_call0_cst_1) (TRef.of (T := ⟨S401408, .f32⟩) main_call0_v7) RA,
    TRef.unary (TRef.of (T := ⟨S401408, .f32⟩) main_call0_v7) (TRef.of (T := ⟨S401408x1, .f32⟩) main_call0_v8) (broadcastInDim S401408x1 ![0] bcast_S401408_S401408x1_0),
    TRef.unary (TRef.of (T := ⟨S401408x1, .f32⟩) main_call0_v8) (TRef.of (T := ⟨S401408x1, .f32⟩) main_call0_v9) Host.log,
    TRef.unary (TRef.of (T := ⟨S401408x1, .f32⟩) main_call0_v9) (TRef.of (T := ⟨S401408x96, .f32⟩) main_call0_v10) (broadcastInDim S401408x96 ![0, 1] bcast_S401408x1_S401408x96_0_1),
    TRef.binary (TRef.of (T := ⟨S401408x96, .f32⟩) main_call0_v5) (TRef.of (T := ⟨S401408x96, .f32⟩) main_call0_v10) (TRef.of (T := ⟨S401408x96, .f32⟩) main_v2) subf ]

/-- The operations as the program has them. -/
abbrev ops : List (HloOp τ sig (Elt F)) := opsWith hostMax hostSum

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub (R RA : RowReduce F) : (opsWith R RA).Forall fun op => op.bufs ⊆ tcRefs τ sig :=
  ⟨unary_bufs_sub .., reshape_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

set_option maxHeartbeats 1700000 in
/-- After the seventeen operations the result buffer holds the composed term of what the argument buffer held:
    the fold over the operations computed, whatever the two reductions are. -/
theorem after_result (R RA : RowReduce F) (m : (ℓ : Loc nD τ sig) → Buf (Elt F) ℓ) (c : Dev nD) :
    after (opsWith R RA) (launchContents m c) (Proc.tc.devRef main_v2)
      = resultWith R RA (m ((c.tc : Thread nD τ).loc main_arg0)) := by
  after_results <;> rfl

set_option maxHeartbeats 1700000 in
/-- No operation writes the argument's buffer. -/
theorem after_arg (R RA : RowReduce F) (m : (ℓ : Loc nD τ sig) → Buf (Elt F) ℓ) (c : Dev nD) :
    after (opsWith R RA) (launchContents m c) (Proc.tc.devRef main_arg0)
      = m ((c.tc : Thread nD τ).loc main_arg0) := by
  after_results <;> rfl

/-- On every device, for any float values, from any memory with zero counters: every weakly fair execution of
    @main terminates with the result buffer at `result` of the argument and the argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v2) = result (m ((c.tc : Thread nD τ).loc main_arg0))
      ∧ r.2.mem ((c.tc : Thread nD τ).loc main_arg0) = m ((c.tc : Thread nD τ).loc main_arg0) :=
  (θ_run defs _ _).mono (fun _ h c => ⟨(h c main_v2).trans (after_result hostMax hostSum m c),
      (h c main_arg0).trans (after_arg hostMax hostSum m c)⟩)
    (run_seq scopedRefs_eq scopedSems_eq defs main (fun _ => ops) main_eq (fun _ => ops_sub hostMax hostSum) m ρ)

end Cert.ReferenceIdeal.RowRun

end
-- ==== Proof.LibLogSoftmaxLaw.lean ====
/-
# The log-softmax of a finite family of real numbers, written two ways (general; Mathlib and the ideal operations only)

  `LogSoftmaxLaw.fused f c = f c - (M + L)` and `LogSoftmaxLaw.staged f c = (f c - M) - L` with `M = ⨆ k, f k` and
  `L = Ideal.log (∑ k, Ideal.exp (f k - M))`, over any finite nonempty index type; `fused_eq_staged`: they agree when
  every `f k` is a real number. Also `coe_sum`: the reals' embedding commutes with finite sums.

  For reals `f k` (`k` over a finite nonempty index type) let `M` be their maximum and
  `L = log (sum over k of exp (f k - M))`. One program subtracts from `f c` the number `M + L`; another
  first subtracts `M` and then `L`. On the reals these agree (`a - (M + L) = (a - M) - L`). On the extended reals
  they agree as soon as every `f k` is a real number: then `M` is one of the `f k`, each exponential is a positive
  real, their finite sum is a positive real, and its logarithm is a real — so all three numbers are real and the real
  identity applies. (At an infinite entry the two forms can differ: `⊤ - ⊤` is `⊥` there.)
-/
import Idealize.ShloMosaic.PureOps.Ideal
import Mathlib.Order.ConditionallyCompleteLattice.Finset
import Mathlib.Analysis.SpecialFunctions.Exp

noncomputable section

namespace LogSoftmaxLaw

open Idealize.ShloMosaic

/-- The reals' embedding into the extended reals commutes with finite sums. -/
theorem coe_sum {ι : Type*} (s : Finset ι) (g : ι → ℝ) :
    ((∑ k ∈ s, g k : ℝ) : EReal) = ∑ k ∈ s, (g k : EReal) := by
  classical
  refine Finset.induction_on s (by simp) fun a s ha ih => ?_
  rw [Finset.sum_insert ha, Finset.sum_insert ha, EReal.coe_add, ih]

variable {ι : Type*} [Fintype ι] [Nonempty ι]

/-- The log-softmax as one subtraction of `max + log-sum-exp` (a kernel's order). -/
def fused (f : ι → EReal) (c : ι) : EReal :=
  f c - ((⨆ k, f k) + Ideal.log (∑ k, Ideal.exp (f k - ⨆ k, f k)))

/-- The log-softmax as two subtractions, the maximum first (a library's order). -/
def staged (f : ι → EReal) (c : ι) : EReal :=
  (f c - ⨆ k, f k) - Ideal.log (∑ k, Ideal.exp (f k - ⨆ k, f k))

/-- For real entries the two orders give the same extended real. -/
theorem fused_eq_staged (f : ι → EReal) (hf : ∀ k, ∃ r : ℝ, f k = (r : EReal)) (c : ι) :
    fused f c = staged f c := by
  unfold fused staged
  choose g hg using hf
  obtain ⟨k0, hk0⟩ := exists_eq_ciSup_of_finite (f := f)
  rw [← hk0]
  have hsum : ∑ k, Ideal.exp (f k - f k0) = ((∑ k, Real.exp (g k - g k0) : ℝ) : EReal) := by
    rw [coe_sum]
    refine Finset.sum_congr rfl fun k _ => ?_
    rw [hg k, hg k0, ← EReal.coe_sub, Ideal.exp_coe]
  have hpos : 0 < ∑ k, Real.exp (g k - g k0) :=
    Finset.sum_pos (fun k _ => Real.exp_pos _) Finset.univ_nonempty
  rw [hsum, Ideal.log_coe, if_neg (not_le.mpr hpos), hg c, hg k0, ← EReal.coe_add, ← EReal.coe_sub,
    ← EReal.coe_sub, ← EReal.coe_sub, sub_add_eq_sub_sub]

end LogSoftmaxLaw

end
-- ==== Proof.PixelSpec.lean ====
/-
  What both programs compute, as one function of the input array.

  The input is [8, 96, 224, 224] (batch, channel, height, width). The result has one row per pixel — row
  `r = (b * 224 + w) * 224 + h`, so batch `r / 50176`, width `r / 224 % 224`, height `r % 224` — and in that row the
  log-softmax of the pixel's 96 channel values.
-/
import proofs.«162361_g53626961658373_cont_9to1c4b_865_30_alg».proof.Proof.LibLogSoftmaxLaw
import Idealize.ShloMosaic.Lib.ValueIdx

noncomputable section

namespace Cert.PixelSpec

open Idealize.ShloMosaic Idealize.ShloMosaic.ValueIdx

/-- Where channel `k` of result row `r` sits in the input: batch `r / 50176`, height `r % 224`, width `r / 224 % 224`. -/
def pixel (r : Fin 401408) (k : Fin 96) : (⟨4, ![8, 96, 224, 224]⟩ : Shape).Idx :=
  ix4 (⟨r.val / 50176, by have := r.isLt; omega⟩ : Fin 8) k (⟨r.val % 224, by omega⟩ : Fin 224)
    (⟨r.val / 224 % 224, by omega⟩ : Fin 224)

/-- The 96 channel values of result row `r`. -/
def channels (x : (⟨4, ![8, 96, 224, 224]⟩ : Shape).Idx → EReal) (r : Fin 401408) : Fin 96 → EReal :=
  fun k => x (pixel r k)

/-- The result in the library's order of operations: the row's maximum subtracted first, then the logarithm of the
    sum of exponentials. -/
def staged (x : (⟨4, ![8, 96, 224, 224]⟩ : Shape).Idx → EReal) (i : (⟨2, ![401408, 96]⟩ : Shape).Idx) : EReal :=
  LogSoftmaxLaw.staged (channels x (i 0)) (i 1)

/-- The result in the kernel's order: `max + log-sum-exp` subtracted at once. -/
def fused (x : (⟨4, ![8, 96, 224, 224]⟩ : Shape).Idx → EReal) (i : (⟨2, ![401408, 96]⟩ : Shape).Idx) : EReal :=
  LogSoftmaxLaw.fused (channels x (i 0)) (i 1)

/-- On an input all of whose entries are real numbers the two orders agree. -/
theorem fused_eq_staged (x : (⟨4, ![8, 96, 224, 224]⟩ : Shape).Idx → EReal) (hx : ∀ j, ∃ r : ℝ, x j = (r : EReal)) :
    fused x = staged x :=
  funext fun i => LogSoftmaxLaw.fused_eq_staged (channels x (i 0)) (fun k => hx (pixel (i 0) k)) (i 1)

end Cert.PixelSpec

end
-- ==== Proof.LibOrderFold.lean ====
import Mathlib.Order.CompleteLattice.Basic
import Mathlib.Order.ConditionallyCompleteLattice.Finset
import Mathlib.Data.Finset.Fold

/-!
# Minima and maxima over a finite index type, in a complete linear order

A minimum folded from the top element over a finite index type is the infimum of the family, and a maximum folded
from the bottom element is its supremum. A monotone map commutes with the infimum and with the supremum of a
NONEMPTY finite family (the extremum is attained, so no continuity is asked). An infimum over the first
`B * (k + 1)` positions of `Fin n` is the minimum of the infimum over the first `B * k` positions and the
infimum over the block of `B` positions that follows them; the same for suprema and maxima. Mathlib only.
-/

namespace OrderFold

variable {α : Type*} [CompleteLinearOrder α] {ι : Type*}

/-- A minimum folded from `⊤` over a finite index type is the infimum of the family. -/
theorem fold_min_top [Fintype ι] (f : ι → α) : (Finset.univ : Finset ι).fold min ⊤ f = ⨅ i, f i := by
  refine eq_of_forall_le_iff fun c => ?_
  rw [Finset.le_fold_min, le_iInf_iff]
  simp

/-- A maximum folded from `⊥` over a finite index type is the supremum of the family. -/
theorem fold_max_bot [Fintype ι] (f : ι → α) : (Finset.univ : Finset ι).fold max ⊥ f = ⨆ i, f i := by
  refine eq_of_forall_ge_iff fun c => ?_
  rw [Finset.fold_max_le, iSup_le_iff]
  simp

/-- A monotone map commutes with the infimum of a nonempty finite family: the infimum is one of its members. -/
theorem map_iInf_of_monotone [Finite ι] [Nonempty ι] {q : α → α} (hq : Monotone q) (f : ι → α) :
    q (⨅ i, f i) = ⨅ i, q (f i) := by
  obtain ⟨i0, hi0⟩ := exists_eq_ciInf_of_finite (f := f)
  refine le_antisymm (le_iInf fun i => hq (iInf_le f i)) ?_
  rw [← hi0]
  exact iInf_le (fun i => q (f i)) i0

/-- A monotone map commutes with the supremum of a nonempty finite family. -/
theorem map_iSup_of_monotone [Finite ι] [Nonempty ι] {q : α → α} (hq : Monotone q) (f : ι → α) :
    q (⨆ i, f i) = ⨆ i, q (f i) := by
  obtain ⟨i0, hi0⟩ := exists_eq_ciSup_of_finite (f := f)
  refine le_antisymm ?_ (iSup_le fun i => hq (le_iSup f i))
  rw [← hi0]
  exact le_iSup (fun i => q (f i)) i0

/-- The infimum of `f` over the positions of `Fin n` below `b`. -/
def infBelow {n : ℕ} (f : Fin n → α) (b : ℕ) : α := ⨅ (h : Fin n) (_ : h.val < b), f h

/-- The supremum of `f` over the positions of `Fin n` below `b`. -/
def supBelow {n : ℕ} (f : Fin n → α) (b : ℕ) : α := ⨆ (h : Fin n) (_ : h.val < b), f h

theorem le_infBelow_iff {n : ℕ} (f : Fin n → α) (b : ℕ) (c : α) :
    c ≤ infBelow f b ↔ ∀ h : Fin n, h.val < b → c ≤ f h := by
  unfold infBelow; simp only [le_iInf_iff]

theorem supBelow_le_iff {n : ℕ} (f : Fin n → α) (b : ℕ) (c : α) :
    supBelow f b ≤ c ↔ ∀ h : Fin n, h.val < b → f h ≤ c := by
  unfold supBelow; simp only [iSup_le_iff]

/-- Below position `0` there is nothing: the infimum is `⊤`. -/
theorem infBelow_zero {n : ℕ} (f : Fin n → α) : infBelow f 0 = ⊤ :=
  top_unique ((le_infBelow_iff f 0 ⊤).mpr fun _ h => absurd h (Nat.not_lt_zero _))

/-- Below position `0` there is nothing: the supremum is `⊥`. -/
theorem supBelow_zero {n : ℕ} (f : Fin n → α) : supBelow f 0 = ⊥ :=
  bot_unique ((supBelow_le_iff f 0 ⊥).mpr fun _ h => absurd h (Nat.not_lt_zero _))

/-- Below position `n` is every position. -/
theorem infBelow_all {n : ℕ} (f : Fin n → α) {b : ℕ} (hb : n ≤ b) : infBelow f b = ⨅ h, f h := by
  refine eq_of_forall_le_iff fun c => ?_
  rw [le_infBelow_iff, le_iInf_iff]
  exact ⟨fun H h => H h (lt_of_lt_of_le h.isLt hb), fun H h _ => H h⟩

theorem supBelow_all {n : ℕ} (f : Fin n → α) {b : ℕ} (hb : n ≤ b) : supBelow f b = ⨆ h, f h := by
  refine eq_of_forall_ge_iff fun c => ?_
  rw [supBelow_le_iff, iSup_le_iff]
  exact ⟨fun H h => H h (lt_of_lt_of_le h.isLt hb), fun H h _ => H h⟩

/-- One more block: the infimum below `B * (k + 1)` is the minimum of the infimum below `B * k` and the infimum over
    the block of `B` positions `B * k + r`. -/
theorem min_infBelow_block {n B : ℕ} (f : Fin n → α) (k : ℕ) (hk : B * (k + 1) ≤ n) (g : Fin B → α)
    (hg : ∀ (r : Fin B) (hr : B * k + r.val < n), g r = f ⟨B * k + r.val, hr⟩) :
    min (infBelow f (B * k)) (⨅ r, g r) = infBelow f (B * (k + 1)) := by
  refine eq_of_forall_le_iff fun c => ?_
  rw [le_min_iff, le_infBelow_iff, le_infBelow_iff, le_iInf_iff]
  have hmul : B * (k + 1) = B * k + B := Nat.mul_succ B k
  constructor
  · rintro ⟨H1, H2⟩ h hh
    by_cases hlt : h.val < B * k
    · exact H1 h hlt
    · have hr : h.val - B * k < B := by omega
      have e := hg ⟨h.val - B * k, hr⟩ (by show B * k + (h.val - B * k) < n; omega)
      have e' : (⟨B * k + (h.val - B * k), by omega⟩ : Fin n) = h := Fin.ext (by show B * k + (h.val - B * k) = h.val; omega)
      have := H2 ⟨h.val - B * k, hr⟩
      rw [e] at this
      exact e' ▸ this
  · intro H
    refine ⟨fun h hh => H h (by omega), fun r => ?_⟩
    have hr : B * k + r.val < n := by have := r.isLt; omega
    rw [hg r hr]
    exact H _ (by show B * k + r.val < B * (k + 1); have := r.isLt; omega)

/-- One more block: the supremum below `B * (k + 1)` is the maximum of the supremum below `B * k` and the supremum
    over the block of `B` positions `B * k + r`. -/
theorem max_supBelow_block {n B : ℕ} (f : Fin n → α) (k : ℕ) (hk : B * (k + 1) ≤ n) (g : Fin B → α)
    (hg : ∀ (r : Fin B) (hr : B * k + r.val < n), g r = f ⟨B * k + r.val, hr⟩) :
    max (supBelow f (B * k)) (⨆ r, g r) = supBelow f (B * (k + 1)) := by
  refine eq_of_forall_ge_iff fun c => ?_
  rw [max_le_iff, supBelow_le_iff, supBelow_le_iff, iSup_le_iff]
  have hmul : B * (k + 1) = B * k + B := Nat.mul_succ B k
  constructor
  · rintro ⟨H1, H2⟩ h hh
    by_cases hlt : h.val < B * k
    · exact H1 h hlt
    · have hr : h.val - B * k < B := by omega
      have e := hg ⟨h.val - B * k, hr⟩ (by show B * k + (h.val - B * k) < n; omega)
      have e' : (⟨B * k + (h.val - B * k), by omega⟩ : Fin n) = h := Fin.ext (by show B * k + (h.val - B * k) = h.val; omega)
      have := H2 ⟨h.val - B * k, hr⟩
      rw [e] at this
      exact e' ▸ this
  · intro H
    refine ⟨fun h hh => H h (by omega), fun r => ?_⟩
    have hr : B * k + r.val < n := by have := r.isLt; omega
    rw [hg r hr]
    exact H _ (by show B * k + r.val < B * (k + 1); have := r.isLt; omega)

end OrderFold
-- ==== Proof.LibExtremeReduce.lean ====
import Idealize.ShloMosaic.PureOps.Ideal
import Idealize.ShloMosaic.PureOps.Ideal.Laws
import Idealize.ShloMosaic.PureOps.Reduce
import proofs.«162361_g53626961658373_cont_9to1c4b_865_30_alg».proof.Proof.LibOrderFold

/-!
# Minimum and maximum reductions over one axis, read on the extended reals

On the extended reals the f32 words `0x7F800000` and `0xFF800000` denote `⊤` and `⊥`, the neutral elements of `min`
and `max`. So a kernel's lane reduction `vector.multi_reduction <minimumf>` from the `+∞` word over ONE axis, and a
host program's `stablehlo.reduce` with a `minimum` body from the `+∞` word over ONE axis, are both, at a result index
`j`, the infimum of the source over that axis's coordinates (`Shape.Reduces.lift j k`: `j` with coordinate `k` inserted
on the reduced axis); and the `maximumf` / `maximum` ones from the `-∞` word the supremum. The order in which either
program folds does not appear.
-/

noncomputable section

namespace Idealize.ShloMosaic.ExtremeReduce

open Idealize.ShloMosaic

/-- The f32 word of `+∞` denotes `⊤`. -/
theorem ofBits_posInf : Ideal.ofBits .f32 0x7F800000#32 = ⊤ := by simp [Ideal.ofBits, Ideal.ieee]

/-- The f32 word of `-∞` denotes `⊥`. -/
theorem ofBits_negInf : Ideal.ofBits .f32 0xFF800000#32 = ⊥ := by simp [Ideal.ofBits, Ideal.ieee]

variable {s t : Shape} {a : Fin s.rank}

/-- A lane minimum from the `+∞` word over one axis is the infimum over that axis's coordinates. -/
theorem multiReduction_min_single (src : FVec Ideal s .f32) (h : s.Reduces [a] t) (hφ : FKind.Formats .f32)
    (hacc : (0x7F800000#32 : BitVec 32) = FKind.minimumf.neutral .f32 hφ) (j : t.Idx) :
    multiReduction .minimumf [a] t src 0x7F800000#32 h hφ hacc j = ⨅ k : Fin (s.size a), src (h.lift j k) := by
  rw [multiReduction_minimumf_eq_fold, h.fold_filter_drop_single]
  show (Finset.univ : Finset (Fin (s.size a))).fold min (Ideal.ofBits .f32 0x7F800000#32) (src ∘ h.lift j) = _
  rw [ofBits_posInf, OrderFold.fold_min_top]
  rfl

/-- A lane maximum from the `-∞` word over one axis is the supremum over that axis's coordinates. -/
theorem multiReduction_max_single (src : FVec Ideal s .f32) (h : s.Reduces [a] t) (hφ : FKind.Formats .f32)
    (hacc : (0xFF800000#32 : BitVec 32) = FKind.maximumf.neutral .f32 hφ) (j : t.Idx) :
    multiReduction .maximumf [a] t src 0xFF800000#32 h hφ hacc j = ⨆ k : Fin (s.size a), src (h.lift j k) := by
  rw [multiReduction_maximumf_eq_fold, h.fold_filter_drop_single]
  show (Finset.univ : Finset (Fin (s.size a))).fold max (Ideal.ofBits .f32 0xFF800000#32) (src ∘ h.lift j) = _
  rw [ofBits_negInf, OrderFold.fold_max_bot]
  rfl

/-- A host reduce with a `minimum` body from the `+∞` word over one axis is the infimum over that axis's coordinates. -/
theorem hostReduce_min_single {u : Shape} (x : FVec Ideal s .f32) (h' : s.ReducesTo [a] t) (h : s.Reduces [a] t)
    (hu : 0 < u.numel) (j : t.Idx) :
    Host.reduce FloatOps.minimumf x (constant (F := Ideal) u .f32 0x7F800000#32) h' hu j
      = ⨅ k : Fin (s.size a), x (h.lift j k) := by
  rw [Host.reduce_eq_fold_single FloatOps.minimumf x _ h' h hu j]
  show (Finset.univ : Finset (Fin (s.size a))).fold min (Ideal.ofBits .f32 0x7F800000#32) (x ∘ h.lift j) = _
  rw [ofBits_posInf, OrderFold.fold_min_top]
  rfl

/-- A host reduce with a `maximum` body from the `-∞` word over one axis is the supremum over that axis's coordinates. -/
theorem hostReduce_max_single {u : Shape} (x : FVec Ideal s .f32) (h' : s.ReducesTo [a] t) (h : s.Reduces [a] t)
    (hu : 0 < u.numel) (j : t.Idx) :
    Host.reduce FloatOps.maximumf x (constant (F := Ideal) u .f32 0xFF800000#32) h' hu j
      = ⨆ k : Fin (s.size a), x (h.lift j k) := by
  rw [Host.reduce_eq_fold_single FloatOps.maximumf x _ h' h hu j]
  show (Finset.univ : Finset (Fin (s.size a))).fold max (Ideal.ofBits .f32 0xFF800000#32) (x ∘ h.lift j) = _
  rw [ofBits_negInf, OrderFold.fold_max_bot]
  rfl

end Idealize.ShloMosaic.ExtremeReduce

end
-- ==== Proof.RefValue.lean ====
/-
  The reference's result, index by index.

  Row `r`, channel `c` of the flattened transpose is the input at batch `r / 50176`, channel `c`, height `r % 224`,
  width `r / 224 % 224`. The host's row maximum from -inf is the supremum of the row's 96 entries, and taking it once
  more against -inf changes nothing; the host's row sum from zero is the sum of the row's 96 entries. So the
  result at `(r, c)` is the staged log-softmax of the row's channel values.
-/
import proofs.«162361_g53626961658373_cont_9to1c4b_865_30_alg».proof.Proof.RefRun
import proofs.«162361_g53626961658373_cont_9to1c4b_865_30_alg».proof.Proof.PixelSpec
import proofs.«162361_g53626961658373_cont_9to1c4b_865_30_alg».proof.Proof.LibExtremeReduce
import Idealize.ShloMosaic.Lib.Pipeline.Value
import Idealize.ShloMosaic.Lib.ValueIdx
import Idealize.ShloMosaic.PureOps.Ideal.Laws

noncomputable section

namespace Cert.ReferenceIdeal.RowValue

open Cert.ReferenceIdeal Cert.ReferenceIdeal.Gen Idealize.ShloMosaic Idealize.ShloMosaic.ValueIdx Cert.PixelSpec
open Cert.ReferenceIdeal.RowRun

/-- Reducing the channel axis of [401408, 96] leaves [401408]. -/
theorem reduces_rows : S401408x96.Reduces [1] S401408 := by decide

/-- Row `r` with channel `k` inserted. -/
theorem lift_row (r : Fin 401408) (k : Fin 96) : reduces_rows.lift (ix1 r) k = ix2 r k :=
  funext fun a => Fin.ext (by match a with | ⟨0, _⟩ => rfl | ⟨1, _⟩ => rfl)

/-- The flattened transpose at row `r`, channel `c` is the input at that pixel's channel `c`. -/
theorem rows_apply (x : FVec Ideal S8x96x224x224 .f32) (r : Fin 401408) (c : Fin 96) :
    rows x (ix2 r c) = x (pixel r c) := by
  unfold rows
  refine (shapeCast_apply _ shapeCasts_S8x224x224x96_S401408x96 (ix2 r c)
    (ix4 (⟨r.val / 50176, by have := r.isLt; omega⟩ : Fin 8) (⟨r.val / 224 % 224, by omega⟩ : Fin 224)
      (⟨r.val % 224, by omega⟩ : Fin 224) c) ?_).trans ?_
  · rw [Shape.rowMajor_val_four, Shape.rowMajor_val_two]
    show ((r.val / 50176 * 224 + r.val / 224 % 224) * 224 + r.val % 224) * 96 + c.val = r.val * 96 + c.val
    have := r.isLt
    omega
  · exact transpose_apply [0, 3, 2, 1] x transposes_S8x96x224x224_S8x224x224x96_0_3_2_1 _ (pixel r c)
      (fun b => match b with | ⟨0, _⟩ => rfl | ⟨1, _⟩ => rfl | ⟨2, _⟩ => rfl | ⟨3, _⟩ => rfl)

/-- A per-row number spread over the channels reads the row's number. -/
theorem spread_apply (v : FVec Ideal S401408x1 .f32) (r : Fin 401408) (c : Fin 96) :
    spread v (ix2 r c) = v (ix2 r (0 : Fin 1)) := by
  unfold spread
  exact broadcastInDim_apply _ bcast_S401408x1_S401408x96_0_1 v (ix2 r c) (ix2 r (0 : Fin 1)) (fun a => match a with
    | ⟨0, _⟩ => by show r.val = if (401408 : Nat) = 1 then 0 else r.val; rw [if_neg (by decide)]
    | ⟨1, _⟩ => by show 0 = if (1 : Nat) = 1 then 0 else c.val; rw [if_pos rfl])

/-- A vector of per-row numbers as a column reads the vector. -/
theorem column_apply (v : FVec Ideal S401408 .f32) (r : Fin 401408) (u : Fin 1) :
    column v (ix2 r u) = v (ix1 r) := by
  unfold column
  exact broadcastInDim_apply _ bcast_S401408_S401408x1_0 v (ix2 r u) (ix1 r) (fun a => match a with
    | ⟨0, _⟩ => by show r.val = if (401408 : Nat) = 1 then 0 else r.val; rw [if_neg (by decide)])

/-- The host's row maximum from -inf is the supremum of the row's channel values. -/
theorem hostMax_apply (y : FVec Ideal S401408x96 .f32) (r : Fin 401408) :
    hostMax (F := Ideal) y (constant (F := Ideal) S_ .f32 0xFF800000#32) (ix1 r) = ⨆ k : Fin 96, y (ix2 r k) := by
  unfold hostMax
  rw [ExtremeReduce.hostReduce_max_single y reducesTo_S401408x96_S401408_d1 reduces_rows h_S_ (ix1 r)]
  exact iSup_congr fun k => congrArg y (lift_row r k)

/-- The host's row sum from zero is the sum of the row's channel values. -/
theorem hostSum_apply (y : FVec Ideal S401408x96 .f32) (r : Fin 401408) :
    hostSum (F := Ideal) y (constant (F := Ideal) S_ .f32 0x00000000#32) (ix1 r) = ∑ k : Fin 96, y (ix2 r k) := by
  unfold hostSum
  show Ideal.hostReduceAdd reducesTo_S401408x96_S401408_d1 y (Ideal.ofBits .f32 0x00000000#32) (ix1 r) = _
  rw [Ideal.hostReduceAdd_single reducesTo_S401408x96_S401408_d1 reduces_rows, Ideal.ofBits_zero_f32, zero_add]
  exact Finset.sum_congr rfl fun k _ => congrArg y (lift_row r k)

/-- The shifted rows, whatever the maximum's reduction is: each entry minus the larger of -inf and its row's reduced
    value. -/
theorem shiftedWith_apply (R : RowReduce Ideal) (x : FVec Ideal S8x96x224x224 .f32) (r : Fin 401408) (c : Fin 96) :
    shiftedWith R x (ix2 r c)
      = x (pixel r c) - max ⊥ (R (rows x) (constant (F := Ideal) S_ .f32 0xFF800000#32) (ix1 r)) := by
  unfold shiftedWith
  rw [subf_apply, rows_apply, spread_apply, column_apply, maximumf_apply,
    broadcastInDim_apply _ bcast_S_S401408 _ (ix1 r) ix0 (fun a => a.elim0), constant_apply, ExtremeReduce.ofBits_negInf]

/-- The result, whatever the two reductions are: the shifted entry minus the logarithm of the row's reduced
    exponentials. -/
theorem resultWith_apply (R RA : RowReduce Ideal) (x : FVec Ideal S8x96x224x224 .f32) (r : Fin 401408) (c : Fin 96) :
    resultWith R RA x (ix2 r c)
      = shiftedWith R x (ix2 r c)
        - Ideal.log (RA (Host.exp (shiftedWith R x)) (constant (F := Ideal) S_ .f32 0x00000000#32) (ix1 r)) := by
  unfold resultWith
  rw [subf_apply, spread_apply]
  show _ - Ideal.log (column (F := Ideal) _ (ix2 r (0 : Fin 1))) = _
  rw [column_apply]

/-- The shifted rows of the host: each entry minus its row's supremum. -/
theorem shifted_apply (x : FVec Ideal S8x96x224x224 .f32) (r : Fin 401408) (c : Fin 96) :
    shiftedWith (hostMax (F := Ideal)) x (ix2 r c) = channels x r c - ⨆ k, channels x r k := by
  rw [shiftedWith_apply, hostMax_apply, max_eq_right bot_le]
  simp only [rows_apply]
  rfl

/-- THE REFERENCE'S RESULT is the staged log-softmax of each pixel's channel values. -/
theorem result_eq (x : FVec Ideal S8x96x224x224 .f32) : result (F := Ideal) x = staged x := by
  funext i
  obtain ⟨r, c, rfl⟩ : ∃ (r : Fin 401408) (c : Fin 96), i = ix2 r c := ⟨i 0, i 1, eq_ix2 i⟩
  unfold result
  rw [resultWith_apply, hostSum_apply, shifted_apply]
  unfold staged LogSoftmaxLaw.staged
  refine congrArg (fun s => _ - Ideal.log s) (Finset.sum_congr rfl fun k _ => ?_)
  show Ideal.exp (shiftedWith (hostMax (F := Ideal)) x (ix2 r k)) = _
  rw [shifted_apply]

end Cert.ReferenceIdeal.RowValue

end
-- ==== Proof.LibRank3Layout.lean ====
/-
  Three layout operations of rank three read at an index given by coordinates.

  A matrix `[a, b]` viewed as `[a, b, 1]` (a trailing unit axis added by a shape cast) keeps its row-major
  position, so entry `(i, j, 0)` of the view is entry `(i, j)` of the matrix. A broadcast never moves a
  coordinate: it reads the operand at the same coordinate on every axis the operand really has, and at `0` on
  an axis of extent one. So `[a, b, 1]` broadcast to `[a, b, c]` forgets the last coordinate, and
  `[1, b, c]` broadcast to `[a, b, c]` forgets the first.

  Together: `x[:, :, None]` stretched along a new last axis reads `x (i, j)` at `(i, j, k)`, and
  `w[None, :, :]` stretched along a new first axis reads `w (j, k)` at `(p, j, k)`.
-/
import Idealize.ShloMosaic.Lib.ValueLayout

namespace Cert.Rank3Layout

open Idealize.ShloMosaic Idealize.ShloMosaic.ValueIdx

variable {α : Type}

/-- An `[a, b]` array cast to `[a, b, 1]` reads, at `(i, j, u)`, the operand at `(i, j)`, whatever the unit
    coordinate `u`: both sit at row-major position `i * b + j`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array broadcast to `[a, b, c]` reads, at `(i, j, k)`, the operand at `(i, j, 0)`: the last
    axis has extent one in the operand, the other two are read where they are. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ =>
    show (0 : ℕ) = if (1 : ℕ) = 1 then 0 else k.val
    rw [if_pos rfl]

/-- A `[1, b, c]` array broadcast to `[a, b, c]` reads, at `(p, j, k)`, the operand's one slab at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (j : Fin b) (k : Fin c) :
    broadcastTo ⟨3, ![a, b, c]⟩ v h (ix3 p j k) = v (ix3 (0 : Fin 1) j k) := by
  refine broadcastTo_apply v h (ix3 p j k) (ix3 (0 : Fin 1) j k) fun ax => ?_
  match ax with
  | ⟨0, _⟩ =>
    show (0 : ℕ) = if (1 : ℕ) = 1 then 0 else p.val
    rw [if_pos rfl]
  | ⟨1, _⟩ =>
    show j.val = if b = 1 then 0 else j.val
    split
    · have := j.isLt; omega
    · rfl
  | ⟨2, _⟩ =>
    show k.val = if c = 1 then 0 else k.val
    split
    · have := k.isLt; omega
    · rfl

/-- The column view of a matrix stretched along a new last axis: `x[:, :, None]` broadcast to `[a, b, c]` reads
    `x (i, j)` at `(i, j, k)`. -/
theorem column_stretch_apply {a b c : ℕ} (x : (⟨2, ![a, b]⟩ : Shape).Idx → α)
    (hc : (⟨2, ![a, b]⟩ : Shape).ShapeCasts ⟨3, ![a, b, 1]⟩)
    (hb : (⟨3, ![a, b, 1]⟩ : Shape).Broadcasts ⟨3, ![a, b, c]⟩) (i : Fin a) (j : Fin b) (k : Fin c) :
    broadcastTo ⟨3, ![a, b, c]⟩ (shapeCast ⟨3, ![a, b, 1]⟩ x hc) hb (ix3 i j k) = x (ix2 i j) :=
  (broadcastTo_ab1_abc_apply _ hb i j k).trans (shapeCast_ab_ab1_apply x hc i j 0)

/-- The slab view of a matrix stretched along a new first axis: `w[None, :, :]` broadcast to `[a, b, c]` reads
    `w (j, k)` at `(p, j, k)`. -/
theorem slab_stretch_apply {a b c : ℕ} (w : (⟨2, ![b, c]⟩ : Shape).Idx → α)
    (hc : (⟨2, ![b, c]⟩ : Shape).ShapeCasts ⟨3, ![1, b, c]⟩)
    (hb : (⟨3, ![1, b, c]⟩ : Shape).Broadcasts ⟨3, ![a, b, c]⟩) (p : Fin a) (j : Fin b) (k : Fin c) :
    broadcastTo ⟨3, ![a, b, c]⟩ (shapeCast ⟨3, ![1, b, c]⟩ w hc) hb (ix3 p j k) = w (ix2 j k) :=
  (broadcastTo_1bc_abc_apply _ hb p j k).trans (shapeCast_ab_1ab_apply w hc 0 j k)

end Cert.Rank3Layout
-- ==== Proof.KernelPieces.lean ====
/-
  What one grid point's body computes, index by index.

  The body loads a block `blk` of shape [1, 96, 56, 224] (one batch entry, all 96 channels, 56 rows, 224 columns),
  drops the unit axis, and for each pixel `(s, w)` of the block forms `base (s, w) = M + log (sum over k of exp
  (blk (k, s, w) - M))` with `M` the maximum over the channels `k`. Then, one block row `s` at a time, it takes the
  slab `blk (·, s, ·)` of shape [96, 224], subtracts `base (s, ·)` from every channel, transposes to [224, 96] and
  stores that as row `s` of the output block [1, 224, 56, 96]. So the output block at `(0, w, s, c)` holds
  `blk (0, c, s, w) - base (s, w)`: the fused log-softmax of the pixel's 96 channel values, at channel `c`.
-/
import proofs.«162361_g53626961658373_cont_9to1c4b_865_30_alg».proof.Proof.Gen.KernelIdeal.Skeleton
import proofs.«162361_g53626961658373_cont_9to1c4b_865_30_alg».proof.Proof.LibLogSoftmaxLaw
import proofs.«162361_g53626961658373_cont_9to1c4b_865_30_alg».proof.Proof.LibExtremeReduce
import proofs.«162361_g53626961658373_cont_9to1c4b_865_30_alg».proof.Proof.LibRank3Layout
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Pieces

open Cert.KernelIdeal Cert.KernelIdeal.Gen Idealize.ShloMosaic Idealize.ShloMosaic.ValueIdx

/-! ## The per-pixel maximum and the number subtracted from every channel -/

/-- The per-pixel maximum over the 96 channels, as the body takes it: a reduction of the leading axis from -inf. -/
def colMax (v1 : FVec Ideal S96x56x224 .f32) : FVec Ideal S56x224 .f32 :=
  multiReduction .maximumf [0] S56x224 v1 0xFF800000#32 reduces_S96x56x224_S56x224 (.inl rfl) rfl

/-- `max + log (sum of exp (entry - max))` per pixel, kept with a leading unit axis. -/
def baseOf (v1 : FVec Ideal S96x56x224 .f32) : FVec Ideal S1x56x224 .f32 :=
  addf (shapeCast S1x56x224 (colMax v1) shapeCasts_S56x224_S1x56x224)
    (log (shapeCast S1x56x224
      (multiReduction .add [0] S56x224
        (exp (subf v1 (broadcastTo S96x56x224 (shapeCast S1x56x224 (colMax v1) shapeCasts_S56x224_S1x56x224)
          broadcasts_S1x56x224_S96x56x224)))
        0x00000000#32 reduces_S96x56x224_S56x224 (.inl rfl) rfl)
      shapeCasts_S56x224_S1x56x224))

/-- The body's subtrahend is `baseOf` of the block without its unit axis. -/
theorem pay3_eq (blk : Vec Ideal S1x96x56x224 .f32) : k0_pay3 blk = baseOf (k0_pay2 blk) := rfl

/-- Pixel `(s, w)` with channel `k` inserted on the leading axis. -/
theorem lift_channel (s : Fin 56) (w : Fin 224) (k : Fin 96) :
    reduces_S96x56x224_S56x224.lift (ix2 s w) k = ix3 k s w :=
  funext fun a => Fin.ext (by match a with | ⟨0, _⟩ => rfl | ⟨1, _⟩ => rfl | ⟨2, _⟩ => rfl)

/-- The per-pixel maximum is the supremum of the pixel's 96 channel values. -/
theorem colMax_apply (v1 : FVec Ideal S96x56x224 .f32) (s : Fin 56) (w : Fin 224) :
    colMax v1 (ix2 s w) = ⨆ k : Fin 96, v1 (ix3 k s w) :=
  (ExtremeReduce.multiReduction_max_single v1 reduces_S96x56x224_S56x224 (.inl rfl) rfl (ix2 s w)).trans
    (iSup_congr fun k => congrArg v1 (lift_channel s w k))

/-- The subtrahend at pixel `(s, w)`: the supremum `M` of the channel values plus the logarithm of the sum of
    `exp (value - M)`. -/
theorem baseOf_apply (v1 : FVec Ideal S96x56x224 .f32) (u : Fin 1) (s : Fin 56) (w : Fin 224) :
    baseOf v1 (ix3 u s w)
      = (⨆ k : Fin 96, v1 (ix3 k s w))
        + Ideal.log (∑ k : Fin 96, Ideal.exp (v1 (ix3 k s w) - ⨆ k : Fin 96, v1 (ix3 k s w))) := by
  unfold baseOf
  rw [addf_apply]
  refine congrArg₂ (· + ·) ?_ ?_
  · exact (shapeCast_ab_1ab_apply (colMax v1) shapeCasts_S56x224_S1x56x224 u s w).trans (colMax_apply v1 s w)
  · show Ideal.log (shapeCast S1x56x224 _ shapeCasts_S56x224_S1x56x224 (ix3 u s w)) = _
    refine congrArg Ideal.log ?_
    refine (shapeCast_ab_1ab_apply _ shapeCasts_S56x224_S1x56x224 u s w).trans ?_
    refine (Ideal.multiReduction_add_single _ 0x00000000#32 reduces_S96x56x224_S56x224 (.inl rfl) rfl (ix2 s w)).trans ?_
    refine Finset.sum_congr rfl fun (k : Fin 96) _ => ?_
    rw [lift_channel s w k]
    show Ideal.exp (v1 (ix3 k s w) - broadcastTo S96x56x224 (shapeCast S1x56x224 (colMax v1) shapeCasts_S56x224_S1x56x224)
      broadcasts_S1x56x224_S96x56x224 (ix3 k s w)) = _
    rw [Cert.Rank3Layout.slab_stretch_apply (colMax v1) shapeCasts_S56x224_S1x56x224 broadcasts_S1x56x224_S96x56x224 k s w,
      colMax_apply]

/-! ## One stored row -/

/-- What the body stores as block row `o`: the slab of channel values at that row minus the subtrahend's row, each
    channel's row transposed into a column, with the two unit axes of the store's rectangle. -/
def pieceOf (v1 : FVec Ideal S96x56x224 .f32) (v10 : FVec Ideal S1x56x224 .f32) (o : Nat)
    (h1 : S96x56x224.Slices ![0, o, 0] S96x1x224) (h2 : S1x56x224.Slices ![0, o, 0] S1x1x224) :
    FVec Ideal S1x224x1x96 .f32 :=
  shapeCast S1x224x1x96
    (transpose S224x96 [1, 0]
      (subf (shapeCast S96x224 (extractStridedSlice S96x1x224 ![0, o, 0] v1 h1) shapeCasts_S96x1x224_S96x224)
        (broadcastTo S96x224
          (shapeCast S1x224 (shapeCast S224 (extractStridedSlice S1x1x224 ![0, o, 0] v10 h2) shapeCasts_S1x1x224_S224)
            shapeCasts_S224_S1x224)
          broadcasts_S1x224_S96x224))
      transposes_S96x224_p1_0_S224x96)
    shapeCasts_S224x96_S1x224x1x96

/-- The stored row at `(0, w, 0, c)` is channel `c` at pixel `(s, w)` minus the subtrahend there, `s` the row the
    slices start at. -/
theorem pieceOf_apply (v1 : FVec Ideal S96x56x224 .f32) (v10 : FVec Ideal S1x56x224 .f32) (o : Nat)
    (h1 : S96x56x224.Slices ![0, o, 0] S96x1x224) (h2 : S1x56x224.Slices ![0, o, 0] S1x1x224)
    (s : Fin 56) (hs : s.val = o) (u : Fin 1) (w : Fin 224) (u' : Fin 1) (c : Fin 96) :
    pieceOf v1 v10 o h1 h2 (ix4 u w u' c) = v1 (ix3 c s w) - v10 (ix3 (0 : Fin 1) s w) := by
  have hu : u.val = 0 := by omega
  have hu' : u'.val = 0 := by omega
  unfold pieceOf
  refine (shapeCast_apply _ shapeCasts_S224x96_S1x224x1x96 (ix4 u w u' c) (ix2 w c) (by
    rw [Shape.rowMajor_val_two, Shape.rowMajor_val_four]
    show w.val * 96 + c.val = ((u.val * 224 + w.val) * 1 + u'.val) * 96 + c.val
    rw [hu, hu']; omega)).trans ?_
  refine (transpose_ix2_apply _ transposes_S96x224_p1_0_S224x96 w c).trans ?_
  rw [subf_apply]
  refine congrArg₂ (· - ·) ?_ ?_
  · refine (shapeCast_apply _ shapeCasts_S96x1x224_S96x224 (ix2 c w) (ix3 c (0 : Fin 1) w) (by
      rw [Shape.rowMajor_val_three, Shape.rowMajor_val_two]
      show (c.val * 1 + 0) * 224 + w.val = c.val * 224 + w.val
      omega)).trans ?_
    exact slice3_axis1_apply o v1 h1 c (0 : Fin 1) w s (by rw [hs]; rfl)
  · refine (broadcastTo_1b_ab_apply _ broadcasts_S1x224_S96x224 c w).trans ?_
    refine (shapeCast_a_1a_apply _ shapeCasts_S224_S1x224 (0 : Fin 1) w).trans ?_
    refine (shapeCast_apply _ shapeCasts_S1x1x224_S224 (ix1 w) (ix3 (0 : Fin 1) (0 : Fin 1) w) (by
      rw [Shape.rowMajor_val_three, Shape.rowMajor_val_one]
      show (0 * 1 + 0) * 224 + w.val = w.val
      omega)).trans ?_
    exact slice3_axis1_apply o v10 h2 (0 : Fin 1) (0 : Fin 1) w s (by rw [hs]; rfl)

/-! ## The whole output block -/

/-- The output block of a grid point as one function of its input block: at `(0, w, s, c)` the fused log-softmax of
    the 96 channel values at pixel `(s, w)`, at channel `c`. -/
def blockOut (blk : Vec Ideal S1x96x56x224 .f32) : Vec Ideal S1x224x56x96 .f32 :=
  fun y => LogSoftmaxLaw.fused (fun k : Fin 96 => blk (ix4 (0 : Fin 1) k (y 2) (y 1))) (y 3)

/-- The block without its unit axis. -/
theorem pay2_apply (blk : Vec Ideal S1x96x56x224 .f32) (k : Fin 96) (s : Fin 56) (w : Fin 224) :
    k0_pay2 blk (ix3 k s w) = blk (ix4 (0 : Fin 1) k s w) :=
  shapeCast_1abc_abc_apply blk shapeCasts_S1x96x56x224_S96x56x224 k s w

/-- The row stored through the rectangle that starts at block row `o` is that rectangle's part of `blockOut`. -/
theorem row_piece (blk : Vec Ideal S1x96x56x224 .f32) (o : Nat)
    (h1 : S96x56x224.Slices ![0, o, 0] S96x1x224) (h2 : S1x56x224.Slices ![0, o, 0] S1x1x224)
    (inb : ∀ a, (![0, 0, o, 0] : Fin 4 → Nat) a + S1x224x1x96.size a ≤ S1x224x56x96.size a)
    (x : (Rect.unit (s := S1x224x56x96) ![0, 0, o, 0] S1x224x1x96.size inb).shape.Idx) :
    pieceOf (k0_pay2 blk) (k0_pay3 blk) o h1 h2 x
      = blockOut blk ((Rect.unit (s := S1x224x56x96) ![0, 0, o, 0] S1x224x1x96.size inb).emb x) := by
  have ho : o < 56 := by have := inb 2; simpa using this
  obtain ⟨u, w, u', c, rfl⟩ : ∃ (u : Fin 1) (w : Fin 224) (u' : Fin 1) (c : Fin 96), x = ix4 u w u' c :=
    ⟨x 0, x 1, x 2, x 3, eq_ix4 x⟩
  have hu : u.val = 0 := by omega
  have hu' : u'.val = 0 := by omega
  have hemb : (Rect.unit (s := S1x224x56x96) ![0, 0, o, 0] S1x224x1x96.size inb).emb (ix4 u w u' c)
      = ix4 (0 : Fin 1) w (⟨o, ho⟩ : Fin 56) c := by
    funext a; apply Fin.ext
    match a with
    | ⟨0, _⟩ => show 0 + 1 * u.val = 0; omega
    | ⟨1, _⟩ => show 0 + 1 * w.val = w.val; omega
    | ⟨2, _⟩ => show o + 1 * u'.val = o; omega
    | ⟨3, _⟩ => show 0 + 1 * c.val = c.val; omega
  rw [hemb, pieceOf_apply (k0_pay2 blk) (k0_pay3 blk) o h1 h2 ⟨o, ho⟩ rfl u w u' c, pay3_eq, baseOf_apply]
  simp only [pay2_apply]
  rfl

end Cert.KernelIdeal.Pieces

end
-- ==== Proof.BlockCanon.lean ====
/-
  The body's 56 stores, put together.

  The body writes its output block [1, 224, 56, 96] one block row at a time: store number `s` goes through the
  rectangle of the positions `(0, w, s, c)`, and what it stores there is `blk (0, c, s, w)` minus the per-pixel
  subtrahend — that rectangle's part of the one function `blockOut blk`. The 56 rectangles tile the block, so whatever
  the order of the stores the block ends holding `blockOut blk` everywhere.
-/
import proofs.«162361_g53626961658373_cont_9to1c4b_865_30_alg».proof.Proof.Gen.KernelIdeal.Frame
import proofs.«162361_g53626961658373_cont_9to1c4b_865_30_alg».proof.Proof.KernelPieces
import Idealize.ShloMosaic.Lib.Pipeline.Value

set_option maxRecDepth 16384

noncomputable section

namespace Cert.KernelIdeal.Pieces

open Cert.KernelIdeal Cert.KernelIdeal.Gen Idealize.ShloMosaic Idealize.ShloMosaic.ValueIdx

theorem zero_offsets : (![0, 0, 0, 0] : Fin 4 → Nat) = fun _ => 0 := funext fun a => by fin_cases a <;> rfl

set_option maxHeartbeats 2000000 in
/-- After the body the output window's staging buffer holds `blockOut` of the input block: every store is its
    rectangle's part of that function, and the rectangles cover the buffer. -/
theorem out_eq (blk : Vec Ideal S1x96x56x224 .f32) : out0_1 blk = blockOut blk := by
  have hld : View.ld blk r0_0 = blk := View.ld_unit_zero zero_offsets _ blk
  funext y
  unfold out0_1
  rw [hld]
  refine View.canon_apply_of_pieces (blockOut blk) _ ?_ y (cover0_1 _ _ _ _ _ _ _ _ _ _ _ _ _ _ _ _ _ _ _ _ _ _ _ _ _ _ _ _ _ _ _ _ _ _ _ _ _ _ _ _ _ _ _ _ _ _ _ _ _ _ _ _ _ _ _ _ y)
  refine List.forall_mem_cons.2 ⟨fun x => row_piece blk 55 slices_S96x56x224_o0_55_0_S96x1x224 slices_S1x56x224_o0_55_0_S1x1x224 inb_S1x224x56x96_S1x224x1x96_0_0_55_0 x, ?_⟩
  refine List.forall_mem_cons.2 ⟨fun x => row_piece blk 54 slices_S96x56x224_o0_54_0_S96x1x224 slices_S1x56x224_o0_54_0_S1x1x224 inb_S1x224x56x96_S1x224x1x96_0_0_54_0 x, ?_⟩
  refine List.forall_mem_cons.2 ⟨fun x => row_piece blk 53 slices_S96x56x224_o0_53_0_S96x1x224 slices_S1x56x224_o0_53_0_S1x1x224 inb_S1x224x56x96_S1x224x1x96_0_0_53_0 x, ?_⟩
  refine List.forall_mem_cons.2 ⟨fun x => row_piece blk 52 slices_S96x56x224_o0_52_0_S96x1x224 slices_S1x56x224_o0_52_0_S1x1x224 inb_S1x224x56x96_S1x224x1x96_0_0_52_0 x, ?_⟩
  refine List.forall_mem_cons.2 ⟨fun x => row_piece blk 51 slices_S96x56x224_o0_51_0_S96x1x224 slices_S1x56x224_o0_51_0_S1x1x224 inb_S1x224x56x96_S1x224x1x96_0_0_51_0 x, ?_⟩
  refine List.forall_mem_cons.2 ⟨fun x => row_piece blk 50 slices_S96x56x224_o0_50_0_S96x1x224 slices_S1x56x224_o0_50_0_S1x1x224 inb_S1x224x56x96_S1x224x1x96_0_0_50_0 x, ?_⟩
  refine List.forall_mem_cons.2 ⟨fun x => row_piece blk 49 slices_S96x56x224_o0_49_0_S96x1x224 slices_S1x56x224_o0_49_0_S1x1x224 inb_S1x224x56x96_S1x224x1x96_0_0_49_0 x, ?_⟩
  refine List.forall_mem_cons.2 ⟨fun x => row_piece blk 48 slices_S96x56x224_o0_48_0_S96x1x224 slices_S1x56x224_o0_48_0_S1x1x224 inb_S1x224x56x96_S1x224x1x96_0_0_48_0 x, ?_⟩
  refine List.forall_mem_cons.2 ⟨fun x => row_piece blk 47 slices_S96x56x224_o0_47_0_S96x1x224 slices_S1x56x224_o0_47_0_S1x1x224 inb_S1x224x56x96_S1x224x1x96_0_0_47_0 x, ?_⟩
  refine List.forall_mem_cons.2 ⟨fun x => row_piece blk 46 slices_S96x56x224_o0_46_0_S96x1x224 slices_S1x56x224_o0_46_0_S1x1x224 inb_S1x224x56x96_S1x224x1x96_0_0_46_0 x, ?_⟩
  refine List.forall_mem_cons.2 ⟨fun x => row_piece blk 45 slices_S96x56x224_o0_45_0_S96x1x224 slices_S1x56x224_o0_45_0_S1x1x224 inb_S1x224x56x96_S1x224x1x96_0_0_45_0 x, ?_⟩
  refine List.forall_mem_cons.2 ⟨fun x => row_piece blk 44 slices_S96x56x224_o0_44_0_S96x1x224 slices_S1x56x224_o0_44_0_S1x1x224 inb_S1x224x56x96_S1x224x1x96_0_0_44_0 x, ?_⟩
  refine List.forall_mem_cons.2 ⟨fun x => row_piece blk 43 slices_S96x56x224_o0_43_0_S96x1x224 slices_S1x56x224_o0_43_0_S1x1x224 inb_S1x224x56x96_S1x224x1x96_0_0_43_0 x, ?_⟩
  refine List.forall_mem_cons.2 ⟨fun x => row_piece blk 42 slices_S96x56x224_o0_42_0_S96x1x224 slices_S1x56x224_o0_42_0_S1x1x224 inb_S1x224x56x96_S1x224x1x96_0_0_42_0 x, ?_⟩
  refine List.forall_mem_cons.2 ⟨fun x => row_piece blk 41 slices_S96x56x224_o0_41_0_S96x1x224 slices_S1x56x224_o0_41_0_S1x1x224 inb_S1x224x56x96_S1x224x1x96_0_0_41_0 x, ?_⟩
  refine List.forall_mem_cons.2 ⟨fun x => row_piece blk 40 slices_S96x56x224_o0_40_0_S96x1x224 slices_S1x56x224_o0_40_0_S1x1x224 inb_S1x224x56x96_S1x224x1x96_0_0_40_0 x, ?_⟩
  refine List.forall_mem_cons.2 ⟨fun x => row_piece blk 39 slices_S96x56x224_o0_39_0_S96x1x224 slices_S1x56x224_o0_39_0_S1x1x224 inb_S1x224x56x96_S1x224x1x96_0_0_39_0 x, ?_⟩
  refine List.forall_mem_cons.2 ⟨fun x => row_piece blk 38 slices_S96x56x224_o0_38_0_S96x1x224 slices_S1x56x224_o0_38_0_S1x1x224 inb_S1x224x56x96_S1x224x1x96_0_0_38_0 x, ?_⟩
  refine List.forall_mem_cons.2 ⟨fun x => row_piece blk 37 slices_S96x56x224_o0_37_0_S96x1x224 slices_S1x56x224_o0_37_0_S1x1x224 inb_S1x224x56x96_S1x224x1x96_0_0_37_0 x, ?_⟩
  refine List.forall_mem_cons.2 ⟨fun x => row_piece blk 36 slices_S96x56x224_o0_36_0_S96x1x224 slices_S1x56x224_o0_36_0_S1x1x224 inb_S1x224x56x96_S1x224x1x96_0_0_36_0 x, ?_⟩
  refine List.forall_mem_cons.2 ⟨fun x => row_piece blk 35 slices_S96x56x224_o0_35_0_S96x1x224 slices_S1x56x224_o0_35_0_S1x1x224 inb_S1x224x56x96_S1x224x1x96_0_0_35_0 x, ?_⟩
  refine List.forall_mem_cons.2 ⟨fun x => row_piece blk 34 slices_S96x56x224_o0_34_0_S96x1x224 slices_S1x56x224_o0_34_0_S1x1x224 inb_S1x224x56x96_S1x224x1x96_0_0_34_0 x, ?_⟩
  refine List.forall_mem_cons.2 ⟨fun x => row_piece blk 33 slices_S96x56x224_o0_33_0_S96x1x224 slices_S1x56x224_o0_33_0_S1x1x224 inb_S1x224x56x96_S1x224x1x96_0_0_33_0 x, ?_⟩
  refine List.forall_mem_cons.2 ⟨fun x => row_piece blk 32 slices_S96x56x224_o0_32_0_S96x1x224 slices_S1x56x224_o0_32_0_S1x1x224 inb_S1x224x56x96_S1x224x1x96_0_0_32_0 x, ?_⟩
  refine List.forall_mem_cons.2 ⟨fun x => row_piece blk 31 slices_S96x56x224_o0_31_0_S96x1x224 slices_S1x56x224_o0_31_0_S1x1x224 inb_S1x224x56x96_S1x224x1x96_0_0_31_0 x, ?_⟩
  refine List.forall_mem_cons.2 ⟨fun x => row_piece blk 30 slices_S96x56x224_o0_30_0_S96x1x224 slices_S1x56x224_o0_30_0_S1x1x224 inb_S1x224x56x96_S1x224x1x96_0_0_30_0 x, ?_⟩
  refine List.forall_mem_cons.2 ⟨fun x => row_piece blk 29 slices_S96x56x224_o0_29_0_S96x1x224 slices_S1x56x224_o0_29_0_S1x1x224 inb_S1x224x56x96_S1x224x1x96_0_0_29_0 x, ?_⟩
  refine List.forall_mem_cons.2 ⟨fun x => row_piece blk 28 slices_S96x56x224_o0_28_0_S96x1x224 slices_S1x56x224_o0_28_0_S1x1x224 inb_S1x224x56x96_S1x224x1x96_0_0_28_0 x, ?_⟩
  refine List.forall_mem_cons.2 ⟨fun x => row_piece blk 27 slices_S96x56x224_o0_27_0_S96x1x224 slices_S1x56x224_o0_27_0_S1x1x224 inb_S1x224x56x96_S1x224x1x96_0_0_27_0 x, ?_⟩
  refine List.forall_mem_cons.2 ⟨fun x => row_piece blk 26 slices_S96x56x224_o0_26_0_S96x1x224 slices_S1x56x224_o0_26_0_S1x1x224 inb_S1x224x56x96_S1x224x1x96_0_0_26_0 x, ?_⟩
  refine List.forall_mem_cons.2 ⟨fun x => row_piece blk 25 slices_S96x56x224_o0_25_0_S96x1x224 slices_S1x56x224_o0_25_0_S1x1x224 inb_S1x224x56x96_S1x224x1x96_0_0_25_0 x, ?_⟩
  refine List.forall_mem_cons.2 ⟨fun x => row_piece blk 24 slices_S96x56x224_o0_24_0_S96x1x224 slices_S1x56x224_o0_24_0_S1x1x224 inb_S1x224x56x96_S1x224x1x96_0_0_24_0 x, ?_⟩
  refine List.forall_mem_cons.2 ⟨fun x => row_piece blk 23 slices_S96x56x224_o0_23_0_S96x1x224 slices_S1x56x224_o0_23_0_S1x1x224 inb_S1x224x56x96_S1x224x1x96_0_0_23_0 x, ?_⟩
  refine List.forall_mem_cons.2 ⟨fun x => row_piece blk 22 slices_S96x56x224_o0_22_0_S96x1x224 slices_S1x56x224_o0_22_0_S1x1x224 inb_S1x224x56x96_S1x224x1x96_0_0_22_0 x, ?_⟩
  refine List.forall_mem_cons.2 ⟨fun x => row_piece blk 21 slices_S96x56x224_o0_21_0_S96x1x224 slices_S1x56x224_o0_21_0_S1x1x224 inb_S1x224x56x96_S1x224x1x96_0_0_21_0 x, ?_⟩
  refine List.forall_mem_cons.2 ⟨fun x => row_piece blk 20 slices_S96x56x224_o0_20_0_S96x1x224 slices_S1x56x224_o0_20_0_S1x1x224 inb_S1x224x56x96_S1x224x1x96_0_0_20_0 x, ?_⟩
  refine List.forall_mem_cons.2 ⟨fun x => row_piece blk 19 slices_S96x56x224_o0_19_0_S96x1x224 slices_S1x56x224_o0_19_0_S1x1x224 inb_S1x224x56x96_S1x224x1x96_0_0_19_0 x, ?_⟩
  refine List.forall_mem_cons.2 ⟨fun x => row_piece blk 18 slices_S96x56x224_o0_18_0_S96x1x224 slices_S1x56x224_o0_18_0_S1x1x224 inb_S1x224x56x96_S1x224x1x96_0_0_18_0 x, ?_⟩
  refine List.forall_mem_cons.2 ⟨fun x => row_piece blk 17 slices_S96x56x224_o0_17_0_S96x1x224 slices_S1x56x224_o0_17_0_S1x1x224 inb_S1x224x56x96_S1x224x1x96_0_0_17_0 x, ?_⟩
  refine List.forall_mem_cons.2 ⟨fun x => row_piece blk 16 slices_S96x56x224_o0_16_0_S96x1x224 slices_S1x56x224_o0_16_0_S1x1x224 inb_S1x224x56x96_S1x224x1x96_0_0_16_0 x, ?_⟩
  refine List.forall_mem_cons.2 ⟨fun x => row_piece blk 15 slices_S96x56x224_o0_15_0_S96x1x224 slices_S1x56x224_o0_15_0_S1x1x224 inb_S1x224x56x96_S1x224x1x96_0_0_15_0 x, ?_⟩
  refine List.forall_mem_cons.2 ⟨fun x => row_piece blk 14 slices_S96x56x224_o0_14_0_S96x1x224 slices_S1x56x224_o0_14_0_S1x1x224 inb_S1x224x56x96_S1x224x1x96_0_0_14_0 x, ?_⟩
  refine List.forall_mem_cons.2 ⟨fun x => row_piece blk 13 slices_S96x56x224_o0_13_0_S96x1x224 slices_S1x56x224_o0_13_0_S1x1x224 inb_S1x224x56x96_S1x224x1x96_0_0_13_0 x, ?_⟩
  refine List.forall_mem_cons.2 ⟨fun x => row_piece blk 12 slices_S96x56x224_o0_12_0_S96x1x224 slices_S1x56x224_o0_12_0_S1x1x224 inb_S1x224x56x96_S1x224x1x96_0_0_12_0 x, ?_⟩
  refine List.forall_mem_cons.2 ⟨fun x => row_piece blk 11 slices_S96x56x224_o0_11_0_S96x1x224 slices_S1x56x224_o0_11_0_S1x1x224 inb_S1x224x56x96_S1x224x1x96_0_0_11_0 x, ?_⟩
  refine List.forall_mem_cons.2 ⟨fun x => row_piece blk 10 slices_S96x56x224_o0_10_0_S96x1x224 slices_S1x56x224_o0_10_0_S1x1x224 inb_S1x224x56x96_S1x224x1x96_0_0_10_0 x, ?_⟩
  refine List.forall_mem_cons.2 ⟨fun x => row_piece blk 9 slices_S96x56x224_o0_9_0_S96x1x224 slices_S1x56x224_o0_9_0_S1x1x224 inb_S1x224x56x96_S1x224x1x96_0_0_9_0 x, ?_⟩
  refine List.forall_mem_cons.2 ⟨fun x => row_piece blk 8 slices_S96x56x224_o0_8_0_S96x1x224 slices_S1x56x224_o0_8_0_S1x1x224 inb_S1x224x56x96_S1x224x1x96_0_0_8_0 x, ?_⟩
  refine List.forall_mem_cons.2 ⟨fun x => row_piece blk 7 slices_S96x56x224_o0_7_0_S96x1x224 slices_S1x56x224_o0_7_0_S1x1x224 inb_S1x224x56x96_S1x224x1x96_0_0_7_0 x, ?_⟩
  refine List.forall_mem_cons.2 ⟨fun x => row_piece blk 6 slices_S96x56x224_o0_6_0_S96x1x224 slices_S1x56x224_o0_6_0_S1x1x224 inb_S1x224x56x96_S1x224x1x96_0_0_6_0 x, ?_⟩
  refine List.forall_mem_cons.2 ⟨fun x => row_piece blk 5 slices_S96x56x224_o0_5_0_S96x1x224 slices_S1x56x224_o0_5_0_S1x1x224 inb_S1x224x56x96_S1x224x1x96_0_0_5_0 x, ?_⟩
  refine List.forall_mem_cons.2 ⟨fun x => row_piece blk 4 slices_S96x56x224_o0_4_0_S96x1x224 slices_S1x56x224_o0_4_0_S1x1x224 inb_S1x224x56x96_S1x224x1x96_0_0_4_0 x, ?_⟩
  refine List.forall_mem_cons.2 ⟨fun x => row_piece blk 3 slices_S96x56x224_o0_3_0_S96x1x224 slices_S1x56x224_o0_3_0_S1x1x224 inb_S1x224x56x96_S1x224x1x96_0_0_3_0 x, ?_⟩
  refine List.forall_mem_cons.2 ⟨fun x => row_piece blk 2 slices_S96x56x224_o0_2_0_S96x1x224 slices_S1x56x224_o0_2_0_S1x1x224 inb_S1x224x56x96_S1x224x1x96_0_0_2_0 x, ?_⟩
  refine List.forall_mem_cons.2 ⟨fun x => row_piece blk 1 slices_S96x56x224_o0_1_0_S96x1x224 slices_S1x56x224_o0_1_0_S1x1x224 inb_S1x224x56x96_S1x224x1x96_0_0_1_0 x, ?_⟩
  refine List.forall_mem_cons.2 ⟨fun x => row_piece blk 0 slices_S96x56x224_o0_0_0_S96x1x224 slices_S1x56x224_o0_0_0_S1x1x224 inb_S1x224x56x96_S1x224x1x96_0_0_0_0 x, ?_⟩
  intro p hp
  cases hp

end Cert.KernelIdeal.Pieces

end
-- ==== Proof.ArrayValue.lean ====
/-
  From blocks to the arrays, and through the closing reshape.

  The grid is [8, 4]: point `(b, q)` reads the input block `x (b, ·, 56 q .. 56 q + 55, ·)` and writes the output block
  `(b, ·, 56 q .. 56 q + 55, ·)` of an [8, 224, 224, 96] array. The body puts at `(0, w, s, c)` of its output block the
  fused log-softmax of the channel values of the block's pixel `(s, w)`; read through the two windows that is, at
  `(b, w, h, c)` of the array, the fused log-softmax of the input's pixel `(b, h, w)` at channel `c`. The 32 output
  blocks tile the array, so this describes the whole array. The program then reshapes [8, 224, 224, 96] row-major to
  [401408, 96]: row `r` is `(b, w, h)` with `r = (b * 224 + w) * 224 + h`.
-/
import proofs.«162361_g53626961658373_cont_9to1c4b_865_30_alg».proof.Proof.Gen.KernelIdeal.Frame
import proofs.«162361_g53626961658373_cont_9to1c4b_865_30_alg».proof.Proof.BlockCanon
import proofs.«162361_g53626961658373_cont_9to1c4b_865_30_alg».proof.Proof.PixelSpec
import Idealize.ShloMosaic.Lib.Pipeline.Value
import Idealize.ShloMosaic.Lib.StableHlo.Run

noncomputable section

namespace Cert.KernelIdeal.ArrayValue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.KernelIdeal.Pieces

variable (m : (ℓ : Loc nD τ sig) → Buf (Elt Ideal) ℓ) (ρ : Dev nD → PrngReg)

/-- The [8, 224, 224, 96] array the region leaves, as one function of the input: at `(b, w, h, c)` the fused
    log-softmax of the input's channel values at pixel `(b, h, w)`, at channel `c`. -/
def arrayOut (x : S8x96x224x224.Idx → Elt Ideal .f32) : S8x224x224x96.Idx → Elt Ideal .f32 :=
  fun j => LogSoftmaxLaw.fused (fun k : Fin 96 => x (ix4 (j 0) k (j 2) (j 1))) (j 3)

theorem arrayOut_apply (x : S8x96x224x224.Idx → Elt Ideal .f32) (j : S8x224x224x96.Idx) :
    arrayOut x j = LogSoftmaxLaw.fused (fun k : Fin 96 => x (ix4 (j 0) k (j 2) (j 1))) (j 3) := rfl

theorem blockOut_apply (blk : Vec Ideal S1x96x56x224 .f32) (y : S1x224x56x96.Idx) :
    blockOut blk y = LogSoftmaxLaw.fused (fun k : Fin 96 => blk (ix4 (0 : Fin 1) k (y 2) (y 1))) (y 3) := rfl

/-- The fused log-softmax depends only on the channel values and the channel. -/
theorem fused_congr {f g : Fin 96 → EReal} (h : ∀ k, f k = g k) {a b : Fin 96} (hab : a = b) :
    LogSoftmaxLaw.fused f a = LogSoftmaxLaw.fused g b := by
  obtain rfl : f = g := funext h
  rw [hab]

/-- The two windows' block indices, decided over the 32 grid points: both move with the batch entry on axis 0 and
    with the row group on axis 2, and stay at 0 on the other axes. -/
theorem idx_facts : ∀ t : Fin cfg0.N, win0_0.index t (0 : Fin 4) = win0_1.index t (0 : Fin 4)
    ∧ win0_0.index t (1 : Fin 4) = 0 ∧ win0_1.index t (1 : Fin 4) = 0
    ∧ win0_0.index t (2 : Fin 4) = win0_1.index t (2 : Fin 4)
    ∧ win0_0.index t (3 : Fin 4) = 0 ∧ win0_1.index t (3 : Fin 4) = 0
    ∧ win0_1.index t (0 : Fin 4) ≤ 7 ∧ win0_1.index t (2 : Fin 4) ≤ 3 :=
  (by decide +kernel : ∀ t : Fin grid0.N, _)

/-- Every (batch entry, row group) is some grid point's. -/
theorem idx_onto : ∀ (q0 : Fin 8) (q2 : Fin 4), ∃ t : Fin cfg0.N, win0_1.index t = ![q0.val, 0, q2.val, 0] :=
  (by decide +kernel : ∀ (q0 : Fin 8) (q2 : Fin 4), ∃ t : Fin grid0.N, win0_1.index t = ![q0.val, 0, q2.val, 0])

/-- WHAT POINT `t` WRITES BACK is block `t` of `arrayOut` of the input as the region finds it. -/
theorem flushed_eq (c : Dev nD) (t : Fin cfg0.N) :
    (dats m 0 c).flushed 1 t = ((cfg0.win 1).blk t).view.read (Elt Ideal) (arrayOut (V m c main_arg0)) := by
  show (cfg0.win 1).cut (grid0.coords t) ((dats m 0 c).after 1 t) = _
  rw [after0_1, out_eq]
  obtain ⟨e0, e1, e2, e3, e4, e5, e6, e7⟩ := idx_facts t
  funext j
  have hj0 : (j 0).val < 1 := (j 0).isLt
  have hj1 : (j 1).val < 224 := (j 1).isLt
  have hj2 : (j 2).val < 56 := (j 2).isLt
  have hj3 : (j 3).val < 96 := (j 3).isLt
  show blockOut (iblk m c 0 t) ((cfg0.win 1).xinj (grid0.coords t) j)
    = arrayOut (V m c main_arg0) (((cfg0.win 1).blk t).view.emb j)
  rw [blockOut_apply, arrayOut_apply]
  refine fused_congr (fun k => ?_) ?_
  · show V m c main_arg0 (((cfg0.win 0).blk t).view.emb _) = V m c main_arg0 _
    refine congrArg (V m c main_arg0) (funext fun a => Fin.ext ?_)
    match a with
    | ⟨0, _⟩ =>
      show win0_0.index t (0 : Fin 4) * 1 + 1 * 0 = win0_1.index t (0 : Fin 4) * 1 + 1 * (j 0).val
      omega
    | ⟨1, _⟩ =>
      show win0_0.index t (1 : Fin 4) * 96 + 1 * k.val = k.val
      omega
    | ⟨2, _⟩ =>
      show win0_0.index t (2 : Fin 4) * 56 + 1 * (j 2).val = win0_1.index t (2 : Fin 4) * 56 + 1 * (j 2).val
      omega
    | ⟨3, _⟩ =>
      show win0_0.index t (3 : Fin 4) * 224 + 1 * (j 1).val = win0_1.index t (1 : Fin 4) * 224 + 1 * (j 1).val
      omega
  · apply Fin.ext
    show (j 3).val = win0_1.index t (3 : Fin 4) * 96 + 1 * (j 3).val
    omega

/-- An index of the array is in point `t`'s block iff each coordinate is in the block's range on its axis. -/
theorem mem_blk (t : Fin cfg0.N) (i : S8x224x224x96.Idx) :
    i ∈ ((cfg0.win 1).blk t).view.set ↔ ∀ a : Fin 4, win0_1.index t a * S1x224x56x96.size a ≤ (i a).val
      ∧ (i a).val < win0_1.index t a * S1x224x56x96.size a + S1x224x56x96.size a := by
  show i ∈ ((View.whole main_v0).slice (win0_1.rect t)).set ↔ _
  rw [View.set_slice_whole, Rect.mem_set_unit]
  exact Iff.rfl

/-- The 32 output blocks cover the array: `(b, w, h, c)` is in the block of batch entry `b` and row group `h / 56`. -/
theorem covered (i : S8x224x224x96.Idx) :
    ∃ t : Fin cfg0.N, (cfg0.win 1).flush t = true ∧ i ∈ ((cfg0.win 1).blk t).view.set := by
  have hi0 : (i 0).val < 8 := (i 0).isLt
  have hi1 : (i 1).val < 224 := (i 1).isLt
  have hi2 : (i 2).val < 224 := (i 2).isLt
  have hi3 : (i 3).val < 96 := (i 3).isLt
  obtain ⟨t, ht⟩ := idx_onto ⟨(i 0).val, hi0⟩ ⟨(i 2).val / 56, by omega⟩
  have q0 : win0_1.index t (0 : Fin 4) = (i 0).val := congrFun ht 0
  have q1 : win0_1.index t (1 : Fin 4) = 0 := congrFun ht 1
  have q2 : win0_1.index t (2 : Fin 4) = (i 2).val / 56 := congrFun ht 2
  have q3 : win0_1.index t (3 : Fin 4) = 0 := congrFun ht 3
  refine ⟨t, flush0_1 t, ?_⟩
  rw [mem_blk]
  intro a
  match a with
  | ⟨0, _⟩ =>
    show win0_1.index t (0 : Fin 4) * 1 ≤ (i 0).val ∧ (i 0).val < win0_1.index t (0 : Fin 4) * 1 + 1
    omega
  | ⟨1, _⟩ =>
    show win0_1.index t (1 : Fin 4) * 224 ≤ (i 1).val ∧ (i 1).val < win0_1.index t (1 : Fin 4) * 224 + 224
    omega
  | ⟨2, _⟩ =>
    show win0_1.index t (2 : Fin 4) * 56 ≤ (i 2).val ∧ (i 2).val < win0_1.index t (2 : Fin 4) * 56 + 56
    omega
  | ⟨3, _⟩ =>
    show win0_1.index t (3 : Fin 4) * 96 ≤ (i 3).val ∧ (i 3).val < win0_1.index t (3 : Fin 4) * 96 + 96
    omega

/-- THE REGION'S ARRAY after the run is `arrayOut` of the argument as launched. -/
theorem final (c : Dev nD) :
    (dats m 0 c).arrAt 1 cfg0.N = arrayOut (m ((c : Thread nD τ).loc main_arg0)) :=
  ((dats m 0 c).arrAt_eq_of_cover 1 (arrayOut (V m c main_arg0)) (fun t _ => flushed_eq m c t) covered).trans
    (by rw [V_main_arg0])

/-! ## The closing reshape, and the run -/

/-- What the program's result buffer holds after the reshape that follows the region: row `r`, channel `k` is the
    region's array at `(r / 50176, r / 224 % 224, r % 224, k)` — the fused log-softmax of row `r`'s channel values. -/
theorem tail_eq (c : Dev nD) :
    Pipeline.afterTail₀ cfgs (dats m) 0 (V0 m) [hostOps1] c main_v1
      = PixelSpec.fused (m ((c : Thread nD τ).loc main_arg0)) := by
  unfold Pipeline.afterTail₀
  show StableHlo.after hostOps1 _ (Proc.devRef .tc main_v1) = _
  after_results
  have hA : Pipeline.withArrays (cfgs 0).spec c (V0 m c) (fun w => (dats m 0 c).arrAt w (cfgs 0).N) (Proc.tc.devRef main_v0)
      = arrayOut (m ((c : Thread nD τ).loc main_arg0)) :=
    (Pipeline.withArrays_arr spec0 launch0.win.arr_inj c _ _ 1).trans (final m c)
  rw [hA]
  funext i
  obtain ⟨r, k, rfl⟩ : ∃ (r : Fin 401408) (k : Fin 96), i = ix2 r k := ⟨i 0, i 1, eq_ix2 i⟩
  show shapeCast S401408x96 (arrayOut (m ((c : Thread nD τ).loc main_arg0))) shapeCasts_S8x224x224x96_S401408x96 (ix2 r k) = _
  refine (shapeCast_apply _ shapeCasts_S8x224x224x96_S401408x96 (ix2 r k)
    (ix4 (⟨r.val / 50176, by have := r.isLt; omega⟩ : Fin 8) (⟨r.val / 224 % 224, by omega⟩ : Fin 224)
      (⟨r.val % 224, by omega⟩ : Fin 224) k) ?_).trans ?_
  · rw [Shape.rowMajor_val_four, Shape.rowMajor_val_two]
    show ((r.val / 50176 * 224 + r.val / 224 % 224) * 224 + r.val % 224) * 96 + k.val = r.val * 96 + k.val
    have := r.isLt
    omega
  · rw [arrayOut_apply]
    rfl

/-- THE KERNEL PROGRAM'S RUN: every weakly fair execution terminates with the result buffer at the fused log-softmax
    of each pixel's channel values, and the argument unchanged. -/
theorem run : θ_run defs (onTc (τ := τ) (main (F := Ideal))) ⟨m, fun _ => 0, ρ⟩ fun r => ∀ c : Dev nD,
      r.2.mem ((c.tc : Thread nD τ).loc main_v1) = PixelSpec.fused (m ((c.tc : Thread nD τ).loc main_arg0))
      ∧ r.2.mem ((c.tc : Thread nD τ).loc main_arg0) = m ((c.tc : Thread nD τ).loc main_arg0) :=
  (θ_run defs _ _).mono (fun r h c =>
      ⟨((h c).2 main_v1 (Pipeline.mem_restRefs_of main_v1 rfl (by decide))).trans (tail_eq m c),
        ((h c).1 0).trans (((dats m 0 c).arrAt_in 0 rfl _).trans ((A_eq m c 0).trans (V_main_arg0 m c)))⟩)
    (run_main m ρ)

end Cert.KernelIdeal.ArrayValue

end
-- ==== Proof.FiniteInputs.lean ====
/-
  From the precondition to "every entry is a real number".

  The precondition says that `|x| < +inf` holds at every index of the input: the conjunction over all indices, folded from
  `true`, is `true`. On the extended reals `|x|` is `max x (-x)`; if that is below `⊤` then `x` is neither `⊤` nor `⊥`,
  so it is a real number.
-/
import proofs.«162361_g53626961658373_cont_9to1c4b_865_30_alg».proof.Pre_finite_inputs
import proofs.«162361_g53626961658373_cont_9to1c4b_865_30_alg».proof.Proof.LibExtremeReduce
import Idealize.ShloMosaic.Lib.ReduceAll
import Idealize.ShloMosaic.Lib.ValueIdx
import Idealize.ShloMosaic.PureOps.Ideal

noncomputable section

namespace Cert.FiniteInputs

open Idealize.ShloMosaic

/-- Under the precondition every entry of the input is (the embedding of) a real number. -/
theorem real_of_pre [hP : Cert.Pre_finite_inputs.Facts] (x : FVec Ideal Cert.Pre_finite_inputs.S8x96x224x224 .f32)
    (h : Cert.Pre_finite_inputs.fn (F := Ideal) x = fun _ => 1#1) (j : Cert.Pre_finite_inputs.S8x96x224x224.Idx) :
    ∃ r : ℝ, x j = (r : EReal) := by
  haveI : Subsingleton Cert.Pre_finite_inputs.S_.Idx := ⟨fun a b => funext fun d => d.elim0⟩
  have h0 := congrFun h ValueIdx.ix0
  dsimp only [Cert.Pre_finite_inputs.fn] at h0
  have hj := Host.reduce_andi_all _ _ _ _ _ h0 j
  have hj' : Ideal.cmp .olt (max (x j) (-(x j))) (Ideal.ofBits .f32 0x7F800000#32) = 1#1 := hj
  rw [ExtremeReduce.ofBits_posInf] at hj'
  have hlt : max (x j) (-(x j)) < ⊤ := by
    by_contra hn
    simp only [Ideal.cmp, decide_eq_false hn] at hj'
    exact absurd hj' (by decide)
  have h1 : x j ≠ ⊤ := ((le_max_left _ _).trans_lt hlt).ne
  have h2 : x j ≠ ⊥ := by
    intro hb
    have := (le_max_right (x j) (-(x j))).trans_lt hlt
    rw [hb, EReal.neg_bot] at this
    exact lt_irrefl _ this
  exact ⟨(x j).toReal, (EReal.coe_toReal h1 h2).symm⟩

end Cert.FiniteInputs

end
-- ==== Proof.lean ====
/-
  A channel-wise log-softmax with a change of layout, against the library's log-softmax of the transposed rows.

  Input `x` of shape [8, 96, 224, 224] (batch, channel, height, width), every entry finite. Both programs return the
  [401408, 96] array whose row `r = (b * 224 + w) * 224 + h` holds, at channel `c`, the log-softmax over the 96 channels
  of the pixel `(b, h, w)`.

  The kernel runs over a grid [8, 4]: each point takes 56 image rows of one batch entry with all channels, forms per
  pixel `base = M + log (sum over k of exp (x_k - M))` (`M` the channels' maximum) and writes `x_c - base` transposed, one
  block row at a time; the program then reshapes the [8, 224, 224, 96] array to [401408, 96]. The reference
  transposes and reshapes first and computes, per row, `(x_c - M) - log (sum over k of exp (x_k - M))`.

  On the extended reals the two orders of subtraction agree when the entries are real: then `M`, the sum of
  exponentials (positive) and its logarithm are real, and `a - (M + L) = (a - M) - L`. That is where the precondition is
  used; everything else (the maximum from -inf as a supremum, the sum from zero, the layouts) holds for all inputs.

  The three frames: the two kernel programs' are the generated frame certificates; the reference's is its run with the
  result forgotten. The ideal pass rewrote nothing, so the kernel's idealization is its own text.
-/
import proofs.«162361_g53626961658373_cont_9to1c4b_865_30_alg».proof.Defs
import proofs.«162361_g53626961658373_cont_9to1c4b_865_30_alg».proof.Proof.Gen.Kernel
import proofs.«162361_g53626961658373_cont_9to1c4b_865_30_alg».proof.Proof.Gen.Kernel.Skeleton
import proofs.«162361_g53626961658373_cont_9to1c4b_865_30_alg».proof.Proof.Gen.Kernel.Launch
import proofs.«162361_g53626961658373_cont_9to1c4b_865_30_alg».proof.Proof.Gen.Kernel.Points
import proofs.«162361_g53626961658373_cont_9to1c4b_865_30_alg».proof.Proof.Gen.Kernel.Frame
import proofs.«162361_g53626961658373_cont_9to1c4b_865_30_alg».proof.Proof.Gen.KernelIdeal
import proofs.«162361_g53626961658373_cont_9to1c4b_865_30_alg».proof.Proof.Gen.KernelIdeal.Skeleton
import proofs.«162361_g53626961658373_cont_9to1c4b_865_30_alg».proof.Proof.Gen.KernelIdeal.Launch
import proofs.«162361_g53626961658373_cont_9to1c4b_865_30_alg».proof.Proof.Gen.KernelIdeal.Points
import proofs.«162361_g53626961658373_cont_9to1c4b_865_30_alg».proof.Proof.Gen.KernelIdeal.Frame
import proofs.«162361_g53626961658373_cont_9to1c4b_865_30_alg».proof.Proof.Gen.ReferenceIdeal
import proofs.«162361_g53626961658373_cont_9to1c4b_865_30_alg».proof.Proof.Gen.Pre_finite_inputs
import proofs.«162361_g53626961658373_cont_9to1c4b_865_30_alg».proof.Proof.RefRun
import proofs.«162361_g53626961658373_cont_9to1c4b_865_30_alg».proof.Proof.RefValue
import proofs.«162361_g53626961658373_cont_9to1c4b_865_30_alg».proof.Proof.ArrayValue
import proofs.«162361_g53626961658373_cont_9to1c4b_865_30_alg».proof.Proof.FiniteInputs
import Idealize.ShloMosaic.Adequacy
import Idealize.ShloMosaic.Init

noncomputable section

namespace Cert.Proof

open Idealize.ShloMosaic Idealize.SL.Sem

/-- The reference runs and leaves its argument alone: its run, the result forgotten. -/
theorem frame_reference : Cert.frame_ReferenceIdeal := fun m ρ _ =>
  (θ_run Cert.ReferenceIdeal.defs _ _).mono (fun _ h c => (h c).2) (Cert.ReferenceIdeal.RowRun.run (F := Ideal) m ρ)

/-- Both idealized programs end with the staged log-softmax of each pixel's channel values: the reference for every
    input, the kernel — whose own order is the fused one — because under the precondition every entry is real. -/
theorem algebraic : Cert.algebraic_KernelIdeal_ReferenceIdeal := by
  intro m ρ m' ρ' hpre hagree
  refine ⟨fun c => Cert.PixelSpec.staged (m ((c.tc : Thread Cert.KernelIdeal.nD Cert.KernelIdeal.τ).loc Cert.KernelIdeal.main_arg0)), ?_, ?_⟩
  · refine (θ_run Cert.KernelIdeal.defs _ _).mono (fun r h c => ⟨(h c).1.trans ?_, (h c).2⟩)
      (Cert.KernelIdeal.ArrayValue.run m ρ)
    exact Cert.PixelSpec.fused_eq_staged _ (fun j => Cert.FiniteInputs.real_of_pre _ (hpre c) j)
  · refine (θ_run Cert.ReferenceIdeal.defs _ _).mono (fun r h c => ⟨(h c).1.trans ?_, (h c).2⟩)
      (Cert.ReferenceIdeal.RowRun.run (F := Ideal) m' ρ')
    rw [Cert.ReferenceIdeal.RowValue.result_eq, hagree c]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_reference,
  trivial,
  algebraic⟩

end Cert.Proof

end
